-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x4 : Shape := ⟨2, ![200000, 4]⟩
abbrev S16x1 : Shape := ⟨2, ![16, 1]⟩
abbrev S16 : Shape := ⟨1, ![16]⟩
abbrev S1x16 : Shape := ⟨2, ![1, 16]⟩
abbrev S1 : Shape := ⟨1, ![1]⟩
abbrev S2x5000000 : Shape := ⟨2, ![2, 5000000]⟩
abbrev S_ : Shape := ⟨0, ![]⟩

class Facts : Prop where
  bcast_S_S200000x4 : S_.BroadcastsInDim S200000x4 (![] : Fin 0 → Fin S200000x4.rank)
  reducesTo_S200000x4_S_d0_1 : S200000x4.ReducesTo [0, 1] S_
  h_S_ : 0 < S_.numel
  bcast_S_S16x1 : S_.BroadcastsInDim S16x1 (![] : Fin 0 → Fin S16x1.rank)
  reducesTo_S16x1_S_d0_1 : S16x1.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x16 1) : IVec S_ 1 :=
  let main_c_5 : IVec S_ 1 := constantI S_ 1 1#1
  let main_v17 : IVec S_ 1 := (fun x v => Host.reduce IntOp.andi x v reducesTo_S1x16_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S200000x4 .f32) (main_arg1 : FVec F S16x1 .f32) (main_arg2 : FVec F S16 .f32) (main_arg3 : FVec F S1x16 .f32) (main_arg4 : FVec F S1 .f32) (main_arg5 : IVec S2x5000000 32) : IVec S_ 1 :=
  let main_v0 : FVec F S200000x4 .f32 := Host.absf main_arg0
  let main_cst : FVec F S_ .f32 := constant S_ .f32 0x7F800000#32
  let main_v1 : FVec F S200000x4 .f32 := broadcastInDim S200000x4 ![] bcast_S_S200000x4 main_cst
  let main_v2 : IVec S200000x4 1 := cmpf .olt main_v0 main_v1
  let main_c : IVec S_ 1 := constantI S_ 1 1#1
  let main_v3 : IVec S_ 1 := (fun x v => Host.reduce IntOp.andi x v reducesTo_S200000x4_S_d0_1 h_S_) main_v2 main_c
  let main_v4 : FVec F S16x1 .f32 := Host.absf main_arg1
  let main_cst_0 : FVec F S_ .f32 := constant S_ .f32 0x7F800000#32
  let main_v5 : FVec F S16x1 .f32 := broadcastInDim S16x1 ![] bcast_S_S16x1 main_cst_0
  let main_v6 : IVec S16x1 1 := cmpf .olt main_v4 main_v5
  let main_c_1 : IVec S_ 1 := constantI S_ 1 1#1
  let main_v7 : IVec S_ 1 := (fun x v => Host.reduce IntOp.andi x v reducesTo_S16x1_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S1x16 .f32 := Host.absf main_arg3
  let main_cst_4 : FVec F S_ .f32 := constant S_ .f32 0x7F800000#32
  let main_v15 : FVec F S1x16 .f32 := broadcastInDim S1x16 ![] bcast_S_S1x16 main_cst_4
  let main_v16 : IVec S1x16 1 := cmpf .olt main_v14 main_v15
  fn_part1 (F := F) main_arg4 main_v13 main_v16
-- ==== Kernel.lean ====
abbrev S200000x4 : Shape := ⟨2, ![200000, 4]⟩
abbrev S16x1 : Shape := ⟨2, ![16, 1]⟩
abbrev S16 : Shape := ⟨1, ![16]⟩
abbrev S1x16 : Shape := ⟨2, ![1, 16]⟩
abbrev S1 : Shape := ⟨1, ![1]⟩
abbrev S2x5000000 : Shape := ⟨2, ![2, 5000000]⟩
abbrev S1x5000000 : Shape := ⟨2, ![1, 5000000]⟩
abbrev S5000000 : Shape := ⟨1, ![5000000]⟩
abbrev S200000 : Shape := ⟨1, ![200000]⟩
abbrev S5200000 : Shape := ⟨1, ![5200000]⟩
abbrev S_ : Shape := ⟨0, ![]⟩
abbrev S5200000x1 : Shape := ⟨2, ![5200000, 1]⟩
abbrev S200000x1 : Shape := ⟨2, ![200000, 1]⟩
abbrev S10000x1 : Shape := ⟨2, ![10000, 1]⟩
abbrev S10000x16 : Shape := ⟨2, ![10000, 16]⟩
abbrev S1x1 : Shape := ⟨2, ![1, 1]⟩

abbrev nBuf : Space → Nat
  | .hbm => 64
  | .vmem => 9
  | .smem => 0
  | _ => 0

abbrev bufTy : (tb : Table) → Fin (tcTables nBuf tb) → BufTy
  | .hbm, ⟨0, _⟩ => ⟨S200000x4, .f32⟩
  | .hbm, ⟨1, _⟩ => ⟨S16x1, .f32⟩
  | .hbm, ⟨2, _⟩ => ⟨S16, .f32⟩
  | .hbm, ⟨3, _⟩ => ⟨S1x16, .f32⟩
  | .hbm, ⟨4, _⟩ => ⟨S1, .f32⟩
  | .hbm, ⟨5, _⟩ => ⟨S2x5000000, .i32⟩
  | .hbm, ⟨6, _⟩ => ⟨S1x5000000, .i32⟩
  | .hbm, ⟨7, _⟩ => ⟨S5000000, .i32⟩
  | .hbm, ⟨8, _⟩ => ⟨S1x5000000, .i32⟩
  | .hbm, ⟨9, _⟩ => ⟨S5000000, .i32⟩
  | .hbm, ⟨10, _⟩ => ⟨S200000, .i32⟩
  | .hbm, ⟨11, _⟩ => ⟨S5200000, .i32⟩
  | .hbm, ⟨12, _⟩ => ⟨S5200000, .i32⟩
  | .hbm, ⟨13, _⟩ => ⟨S_, .f32⟩
  | .hbm, ⟨14, _⟩ => ⟨S5200000, .f32⟩
  | .hbm, ⟨15, _⟩ => ⟨S_, .f32⟩
  | .hbm, ⟨16, _⟩ => ⟨S200000, .f32⟩
  | .hbm, ⟨17, _⟩ => ⟨S5200000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S200000, .f32⟩
  | .hbm, ⟨23, _⟩ => ⟨S_, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S200000x1, .f32⟩
  | .hbm, ⟨28, _⟩ => ⟨S200000x1, .f32⟩
  | .hbm, ⟨29, _⟩ => ⟨S200000x1, .f32⟩
  | .hbm, ⟨30, _⟩ => ⟨S_, .i32⟩
  | .hbm, ⟨31, _⟩ => ⟨S5200000, .i32⟩
  | .hbm, ⟨32, _⟩ => ⟨S5200000, .i1⟩
  | .hbm, ⟨33, _⟩ => ⟨S_, .i32⟩
  | .hbm, ⟨34, _⟩ => ⟨S5200000, .i32⟩
  | .hbm, ⟨35, _⟩ => ⟨S5200000, .i32⟩
  | .hbm, ⟨36, _⟩ => ⟨S5200000, .i32⟩
  | .hbm, ⟨37, _⟩ => ⟨S5200000x1, .i32⟩
  | .hbm, ⟨38, _⟩ => ⟨S5200000x1, .f32⟩
  | .hbm, ⟨39, _⟩ => ⟨S_, .f32⟩
  | .hbm, ⟨40, _⟩ => ⟨S200000x1, .f32⟩
  | .hbm, ⟨41, _⟩ => ⟨S5200000x1, .i32⟩
  | .hbm, ⟨42, _⟩ => ⟨S200000x1, .f32⟩
  | .hbm, ⟨43, _⟩ => ⟨S1x16, .f32⟩
  | .hbm, ⟨44, _⟩ => ⟨S1x16, .f32⟩
  | .hbm, ⟨45, _⟩ => ⟨S16x1, .f32⟩
  | .hbm, ⟨46, _⟩ => ⟨S200000x1, .f32⟩
  | .hbm, ⟨47, _⟩ => ⟨S_, .i32⟩
  | .hbm, ⟨48, _⟩ => ⟨S5200000, .i32⟩
  | .hbm, ⟨49, _⟩ => ⟨S5200000, .i1⟩
  | .hbm, ⟨50, _⟩ => ⟨S_, .i32⟩
  | .hbm, ⟨51, _⟩ => ⟨S5200000, .i32⟩
  | .hbm, ⟨52, _⟩ => ⟨S5200000, .i32⟩
  | .hbm, ⟨53, _⟩ => ⟨S5200000, .i32⟩
  | .hbm, ⟨54, _⟩ => ⟨S5200000x1, .i32⟩
  | .hbm, ⟨55, _⟩ => ⟨S5200000x1, .f32⟩
  | .hbm, ⟨56, _⟩ => ⟨S_, .f32⟩
  | .hbm, ⟨57, _⟩ => ⟨S200000x1, .f32⟩
  | .hbm, ⟨58, _⟩ => ⟨S5200000x1, .i32⟩
  | .hbm, ⟨59, _⟩ => ⟨S200000x1, .f32⟩
  | .hbm, ⟨60, _⟩ => ⟨S200000x1, .f32⟩
  | .hbm, ⟨61, _⟩ => ⟨S1x1, .f32⟩
  | .hbm, ⟨62, _⟩ => ⟨S200000x1, .f32⟩
  | .hbm, ⟨63, _⟩ => ⟨S200000x1, .f32⟩
  | .local _ .vmem, ⟨0, _⟩ => ⟨S10000x1, .f32⟩
  | .local _ .vmem, ⟨1, _⟩ => ⟨S10000x1, .f32⟩
  | .local _ .vmem, ⟨2, _⟩ => ⟨S10000x1, .f32⟩
  | .local _ .vmem, ⟨3, _⟩ => ⟨S10000x1, .f32⟩
  | .local _ .vmem, ⟨4, _⟩ => ⟨S1x16, .f32⟩
  | .local _ .vmem, ⟨5, _⟩ => ⟨S1x16, .f32⟩
  | .local _ .vmem, ⟨6, _⟩ => ⟨S16x1, .f32⟩
  | .local _ .vmem, ⟨7, _⟩ => ⟨S10000x1, .f32⟩
  | .local _ .vmem, ⟨8, _⟩ => ⟨S10000x1, .f32⟩
  | _, _ => ⟨S200000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x5000000_S1x5000000_0_0 : S2x5000000.Slices ![0, 0] S1x5000000
  shapeCasts_S1x5000000_S5000000 : S1x5000000.ShapeCasts S5000000
  slices_S2x5000000_S1x5000000_1_0 : S2x5000000.Slices ![1, 0] S1x5000000
  concatenates_S5000000_S200000_S5200000_d0 : Shape.Concatenates [S5000000, S200000] S5200000 0
  bcast_S_S5200000 : S_.BroadcastsInDim S5200000 (![] : Fin 0 → Fin S5200000.rank)
  bcast_S_S200000 : S_.BroadcastsInDim S200000 (![] : Fin 0 → Fin S200000.rank)
  bcast_S5200000_S5200000x1_0 : S5200000.BroadcastsInDim S5200000x1 (![0] : Fin 1 → Fin S5200000x1.rank)
  shapeCasts_S200000_S200000x1 : S200000.ShapeCasts S200000x1
  slices_S200000x4_S200000x1_0_0 : S200000x4.Slices ![0, 0] S200000x1
  bcast_S_S200000x1 : S_.BroadcastsInDim S200000x1 (![] : Fin 0 → Fin S200000x1.rank)
  transposes_S16x1_S1x16_1_0 : S16x1.Transposes [1, 0] S1x16
  shapeCasts_S16_S1x16 : S16.ShapeCasts S1x16
  transposes_S1x16_S16x1_1_0 : S1x16.Transposes [1, 0] S16x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x1_S16x1_0_0 : ∀ a, (![0, 0] : Fin 2 → Nat) a + S16x1.size a ≤ S16x1.size a
  h_S16x1 : 0 < S16x1.numel
  shapeCasts_S16x1_S16x1 : S16x1.ShapeCasts S16x1
  shapeCasts_S1_S1x1 : S1.ShapeCasts S1x1
  bcast_S1x1_S200000x1_0_1 : S1x1.BroadcastsInDim S200000x1 (![0, 1] : Fin 2 → Fin S200000x1.rank)
  scatter_S200000_S5200000x1_S5200000_n_0_0_1_wf : ScatterDims.WF S200000 S5200000x1 S5200000 [] [0] [0] 1
  gather_S200000x1_S5200000x1_S5200000x1_1_0_n_n_0_1_11_wf : GatherDims.WF S200000x1 S5200000x1 S5200000x1 [1] [0] [] [0] [] 1 ![1, 1]
  scatter_S200000x1_S5200000x1_S5200000x1_1_0_0_1_wf : ScatterDims.WF S200000x1 S5200000x1 S5200000x1 [1] [0] [0] 1
  dot_S10000x1_S1x16_S10000x16_1_0_0_1_n_n_wf : DotDims.WF S10000x1 S1x16 S10000x16 [1] [0] [0] [1] [] []
  dot_S10000x16_S16x1_S10000x1_1_0_0_1_n_n_wf : DotDims.WF S10000x16 S16x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S200000x1.size a
  hwx0_0 : ∀ i : grid0.Coords, EltTy.bits .f32 = 32 ∨ (Rect.block (s := S200000x1) S10000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S200000x1.size a
  hwx0_1 : ∀ i : grid0.Coords, EltTy.bits .f32 = 32 ∨ (Rect.block (s := S200000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x1.size a ≤ S200000x1.size a
  hwx0_5 : ∀ i : grid0.Coords, EltTy.bits .f32 = 32 ∨ (Rect.block (s := S200000x1) S10000x1.size (cc0_transform_5 i) (hinb0_5 i)).WholeWords (EltTy.packing .f32)

variable [Facts₀]

def scatter_S200000_S5200000x1_S5200000_n_0_0_1 : ScatterDims S200000 S5200000x1 S5200000 where
  updateWindowDims := []
  insertedWindowDims := [0]
  scatterDimsToOperandDims := [0]
  indexVectorDim := 1
  wf := scatter_S200000_S5200000x1_S5200000_n_0_0_1_wf
def gather_S200000x1_S5200000x1_S5200000x1_1_0_n_n_0_1_11 : GatherDims S200000x1 S5200000x1 S5200000x1 where
  offsetDims := [1]
  collapsedSliceDims := [0]
  operandBatchingDims := []
  startIndicesBatchingDims := []
  startIndexMap := [0]
  indexVectorDim := 1
  sliceSizes := ![1, 1]
  wf := gather_S200000x1_S5200000x1_S5200000x1_1_0_n_n_0_1_11_wf
def scatter_S200000x1_S5200000x1_S5200000x1_1_0_0_1 : ScatterDims S200000x1 S5200000x1 S5200000x1 where
  updateWindowDims := [1]
  insertedWindowDims := [0]
  scatterDimsToOperandDims := [0]
  indexVectorDim := 1
  wf := scatter_S200000x1_S5200000x1_S5200000x1_1_0_0_1_wf
def dot_S10000x1_S1x16_S10000x16_1_0_0_1_n_n : DotDims S10000x1 S1x16 S10000x16 where
  lhsContracting := [1]
  rhsContracting := [0]
  lhsNonContracting := [0]
  rhsNonContracting := [1]
  lhsBatch := []
  rhsBatch := []
  wf := dot_S10000x1_S1x16_S10000x16_1_0_0_1_n_n_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf

abbrev win0_0 : Pipeline.Window sig grid0 :=
  Pipeline.Window.ofSpec (Memref.whole main_v27) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S10000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S200000x4 : Shape := ⟨2, ![200000, 4]⟩
abbrev S16x1 : Shape := ⟨2, ![16, 1]⟩
abbrev S16 : Shape := ⟨1, ![16]⟩
abbrev S1x16 : Shape := ⟨2, ![1, 16]⟩
abbrev S1 : Shape := ⟨1, ![1]⟩
abbrev S2x5000000 : Shape := ⟨2, ![2, 5000000]⟩
abbrev S1x5000000 : Shape := ⟨2, ![1, 5000000]⟩
abbrev S5000000 : Shape := ⟨1, ![5000000]⟩
abbrev S200000x1 : Shape := ⟨2, ![200000, 1]⟩
abbrev S200000 : Shape := ⟨1, ![200000]⟩
abbrev S5200000 : Shape := ⟨1, ![5200000]⟩
abbrev S_ : Shape := ⟨0, ![]⟩
abbrev S5200000x1 : Shape := ⟨2, ![5200000, 1]⟩
abbrev S200000x16 : Shape := ⟨2, ![200000, 16]⟩
abbrev S5200000x16 : Shape := ⟨2, ![5200000, 16]⟩
abbrev S1x1 : Shape := ⟨2, ![1, 1]⟩

abbrev nBuf : Space → Nat
  | .hbm => 127
  | .vmem => 0
  | .smem => 0
  | _ => 0

abbrev bufTy : (tb : Table) → Fin (tcTables nBuf tb) → BufTy
  | .hbm, ⟨0, _⟩ => ⟨S200000x4, .f32⟩
  | .hbm, ⟨1, _⟩ => ⟨S16x1, .f32⟩
  | .hbm, ⟨2, _⟩ => ⟨S16, .f32⟩
  | .hbm, ⟨3, _⟩ => ⟨S1x16, .f32⟩
  | .hbm, ⟨4, _⟩ => ⟨S1, .f32⟩
  | .hbm, ⟨5, _⟩ => ⟨S2x5000000, .i32⟩
  | .hbm, ⟨6, _⟩ => ⟨S1x5000000, .i32⟩
  | .hbm, ⟨7, _⟩ => ⟨S5000000, .i32⟩
  | .hbm, ⟨8, _⟩ => ⟨S1x5000000, .i32⟩
  | .hbm, ⟨9, _⟩ => ⟨S5000000, .i32⟩
  | .hbm, ⟨10, _⟩ => ⟨S200000x1, .f32⟩
  | .hbm, ⟨11, _⟩ => ⟨S200000, .i32⟩
  | .hbm, ⟨12, _⟩ => ⟨S5200000, .i32⟩
  | .hbm, ⟨13, _⟩ => ⟨S5200000, .i32⟩
  | .hbm, ⟨14, _⟩ => ⟨S_, .f32⟩
  | .hbm, ⟨15, _⟩ => ⟨S5200000, .f32⟩
  | .hbm, ⟨16, _⟩ => ⟨S_, .f32⟩
  | .hbm, ⟨17, _⟩ => ⟨S200000, .f32⟩
  | .hbm, ⟨18, _⟩ => ⟨S5200000x1, .i32⟩
  | .hbm, ⟨19, _⟩ => ⟨S200000, .f32⟩
  | .hbm, ⟨20, _⟩ => ⟨S_, .f32⟩
  | .hbm, ⟨21, _⟩ => ⟨S200000, .f32⟩
  | .hbm, ⟨22, _⟩ => ⟨S200000, .i1⟩
  | .hbm, ⟨23, _⟩ => ⟨S200000, .f32⟩
  | .hbm, ⟨24, _⟩ => ⟨S_, .f32⟩
  | .hbm, ⟨25, _⟩ => ⟨S_, .f32⟩
  | .hbm, ⟨26, _⟩ => ⟨S200000, .f32⟩
  | .hbm, ⟨27, _⟩ => ⟨S200000, .f32⟩
  | .hbm, ⟨28, _⟩ => ⟨S_, .i32⟩
  | .hbm, ⟨29, _⟩ => ⟨S5200000, .i32⟩
  | .hbm, ⟨30, _⟩ => ⟨S5200000, .i1⟩
  | .hbm, ⟨31, _⟩ => ⟨S_, .i32⟩
  | .hbm, ⟨32, _⟩ => ⟨S5200000, .i32⟩
  | .hbm, ⟨33, _⟩ => ⟨S5200000, .i32⟩
  | .hbm, ⟨34, _⟩ => ⟨S5200000, .i32⟩
  | .hbm, ⟨35, _⟩ => ⟨S5200000x1, .i32⟩
  | .hbm, ⟨36, _⟩ => ⟨S5200000, .f32⟩
  | .hbm, ⟨37, _⟩ => ⟨S_, .i32⟩
  | .hbm, ⟨38, _⟩ => ⟨S5200000, .i32⟩
  | .hbm, ⟨39, _⟩ => ⟨S5200000, .i1⟩
  | .hbm, ⟨40, _⟩ => ⟨S_, .i32⟩
  | .hbm, ⟨41, _⟩ => ⟨S5200000, .i32⟩
  | .hbm, ⟨42, _⟩ => ⟨S5200000, .i32⟩
  | .hbm, ⟨43, _⟩ => ⟨S5200000, .i32⟩
  | .hbm, ⟨44, _⟩ => ⟨S5200000x1, .i32⟩
  | .hbm, ⟨45, _⟩ => ⟨S5200000, .f32⟩
  | .hbm, ⟨46, _⟩ => ⟨S5200000, .f32⟩
  | .hbm, ⟨47, _⟩ => ⟨S1x16, .f32⟩
  | .hbm, ⟨48, _⟩ => ⟨S200000x16, .f32⟩
  | .hbm, ⟨49, _⟩ => ⟨S_, .i32⟩
  | .hbm, ⟨50, _⟩ => ⟨S5200000, .i32⟩
  | .hbm, ⟨51, _⟩ => ⟨S5200000, .i1⟩
  | .hbm, ⟨52, _⟩ => ⟨S_, .i32⟩
  | .hbm, ⟨53, _⟩ => ⟨S5200000, .i32⟩
  | .hbm, ⟨54, _⟩ => ⟨S5200000, .i32⟩
  | .hbm, ⟨55, _⟩ => ⟨S5200000, .i32⟩
  | .hbm, ⟨56, _⟩ => ⟨S5200000x1, .i32⟩
  | .hbm, ⟨57, _⟩ => ⟨S5200000x16, .f32⟩
  | .hbm, ⟨58, _⟩ => ⟨S5200000x1, .f32⟩
  | .hbm, ⟨59, _⟩ => ⟨S5200000x16, .f32⟩
  | .hbm, ⟨60, _⟩ => ⟨S5200000x16, .f32⟩
  | .hbm, ⟨61, _⟩ => ⟨S_, .f32⟩
  | .hbm, ⟨62, _⟩ => ⟨S200000x16, .f32⟩
  | .hbm, ⟨63, _⟩ => ⟨S5200000x1, .i32⟩
  | .hbm, ⟨64, _⟩ => ⟨S200000x16, .f32⟩
  | .hbm, ⟨65, _⟩ => ⟨S1x16, .f32⟩
  | .hbm, ⟨66, _⟩ => ⟨S200000x16, .f32⟩
  | .hbm, ⟨67, _⟩ => ⟨S200000x16, .f32⟩
  | .hbm, ⟨68, _⟩ => ⟨S_, .f32⟩
  | .hbm, ⟨69, _⟩ => ⟨S200000x16, .f32⟩
  | .hbm, ⟨70, _⟩ => ⟨S200000x16, .f32⟩
  | .hbm, ⟨71, _⟩ => ⟨S200000, .i32⟩
  | .hbm, ⟨72, _⟩ => ⟨S5200000, .i32⟩
  | .hbm, ⟨73, _⟩ => ⟨S5200000, .i32⟩
  | .hbm, ⟨74, _⟩ => ⟨S_, .f32⟩
  | .hbm, ⟨75, _⟩ => ⟨S5200000, .f32⟩
  | .hbm, ⟨76, _⟩ => ⟨S_, .f32⟩
  | .hbm, ⟨77, _⟩ => ⟨S200000, .f32⟩
  | .hbm, ⟨78, _⟩ => ⟨S5200000x1, .i32⟩
  | .hbm, ⟨79, _⟩ => ⟨S200000, .f32⟩
  | .hbm, ⟨80, _⟩ => ⟨S_, .f32⟩
  | .hbm, ⟨81, _⟩ => ⟨S200000, .f32⟩
  | .hbm, ⟨82, _⟩ => ⟨S200000, .i1⟩
  | .hbm, ⟨83, _⟩ => ⟨S200000, .f32⟩
  | .hbm, ⟨84, _⟩ => ⟨S_, .f32⟩
  | .hbm, ⟨85, _⟩ => ⟨S_, .f32⟩
  | .hbm, ⟨86, _⟩ => ⟨S200000, .f32⟩
  | .hbm, ⟨87, _⟩ => ⟨S200000, .f32⟩
  | .hbm, ⟨88, _⟩ => ⟨S_, .i32⟩
  | .hbm, ⟨89, _⟩ => ⟨S5200000, .i32⟩
  | .hbm, ⟨90, _⟩ => ⟨S5200000, .i1⟩
  | .hbm, ⟨91, _⟩ => ⟨S_, .i32⟩
  | .hbm, ⟨92, _⟩ => ⟨S5200000, .i32⟩
  | .hbm, ⟨93, _⟩ => ⟨S5200000, .i32⟩
  | .hbm, ⟨94, _⟩ => ⟨S5200000, .i32⟩
  | .hbm, ⟨95, _⟩ => ⟨S5200000x1, .i32⟩
  | .hbm, ⟨96, _⟩ => ⟨S5200000, .f32⟩
  | .hbm, ⟨97, _⟩ => ⟨S_, .i32⟩
  | .hbm, ⟨98, _⟩ => ⟨S5200000, .i32⟩
  | .hbm, ⟨99, _⟩ => ⟨S5200000, .i1⟩
  | .hbm, ⟨100, _⟩ => ⟨S_, .i32⟩
  | .hbm, ⟨101, _⟩ => ⟨S5200000, .i32⟩
  | .hbm, ⟨102, _⟩ => ⟨S5200000, .i32⟩
  | .hbm, ⟨103, _⟩ => ⟨S5200000, .i32⟩
  | .hbm, ⟨104, _⟩ => ⟨S5200000x1, .i32⟩
  | .hbm, ⟨105, _⟩ => ⟨S5200000, .f32⟩
  | .hbm, ⟨106, _⟩ => ⟨S5200000, .f32⟩
  | .hbm, ⟨107, _⟩ => ⟨S16x1, .f32⟩
  | .hbm, ⟨108, _⟩ => ⟨S200000x1, .f32⟩
  | .hbm, ⟨109, _⟩ => ⟨S_, .i32⟩
  | .hbm, ⟨110, _⟩ => ⟨S5200000, .i32⟩
  | .hbm, ⟨111, _⟩ => ⟨S5200000, .i1⟩
  | .hbm, ⟨112, _⟩ => ⟨S_, .i32⟩
  | .hbm, ⟨113, _⟩ => ⟨S5200000, .i32⟩
  | .hbm, ⟨114, _⟩ => ⟨S5200000, .i32⟩
  | .hbm, ⟨115, _⟩ => ⟨S5200000, .i32⟩
  | .hbm, ⟨116, _⟩ => ⟨S5200000x1, .i32⟩
  | .hbm, ⟨117, _⟩ => ⟨S5200000x1, .f32⟩
  | .hbm, ⟨118, _⟩ => ⟨S5200000x1, .f32⟩
  | .hbm, ⟨119, _⟩ => ⟨S5200000x1, .f32⟩
  | .hbm, ⟨120, _⟩ => ⟨S_, .f32⟩
  | .hbm, ⟨121, _⟩ => ⟨S200000x1, .f32⟩
  | .hbm, ⟨122, _⟩ => ⟨S5200000x1, .i32⟩
  | .hbm, ⟨123, _⟩ => ⟨S200000x1, .f32⟩
  | .hbm, ⟨124, _⟩ => ⟨S1x1, .f32⟩
  | .hbm, ⟨125, _⟩ => ⟨S200000x1, .f32⟩
  | .hbm, ⟨126, _⟩ => ⟨S200000x1, .f32⟩
  | _, _ => ⟨S200000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call1_cst : Ref sig .tc := ⟨.hbm, 68, rfl⟩
abbrev main_call1_v0 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v60 : Ref sig .tc := ⟨.hbm, 87, rfl⟩
abbrev main_c_13 : Ref sig .tc := ⟨.hbm, 88, rfl⟩
abbrev main_v61 : Ref sig .tc := ⟨.hbm, 89, rfl⟩
abbrev main_v62 : Ref sig .tc := ⟨.hbm, 90, rfl⟩
abbrev main_c_14 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_15 : Ref sig .tc := ⟨.hbm, 97, rfl⟩
abbrev main_v68 : Ref sig .tc := ⟨.hbm, 98, rfl⟩
abbrev main_v69 : Ref sig .tc := ⟨.hbm, 99, rfl⟩
abbrev main_c_16 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_17 : Ref sig .tc := ⟨.hbm, 109, rfl⟩
abbrev main_v78 : Ref sig .tc := ⟨.hbm, 110, rfl⟩
abbrev main_v79 : Ref sig .tc := ⟨.hbm, 111, rfl⟩
abbrev main_c_18 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_19 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩

abbrev nD : Nat := 1
abbrev τ : Topo := Topo.v7x

variable {F : FTy → Type} [FloatOps F]

class Facts₀ : Prop where
  slices_S2x5000000_S1x5000000_0_0 : S2x5000000.Slices ![0, 0] S1x5000000
  shapeCasts_S1x5000000_S5000000 : S1x5000000.ShapeCasts S5000000
  slices_S2x5000000_S1x5000000_1_0 : S2x5000000.Slices ![1, 0] S1x5000000
  slices_S200000x4_S200000x1_0_0 : S200000x4.Slices ![0, 0] S200000x1
  concatenates_S5000000_S200000_S5200000_d0 : Shape.Concatenates [S5000000, S200000] S5200000 0
  bcast_S_S5200000 : S_.BroadcastsInDim S5200000 (![] : Fin 0 → Fin S5200000.rank)
  bcast_S_S200000 : S_.BroadcastsInDim S200000 (![] : Fin 0 → Fin S200000.rank)
  bcast_S5200000_S5200000x1_0 : S5200000.BroadcastsInDim S5200000x1 (![0] : Fin 1 → Fin S5200000x1.rank)
  transposes_S16x1_S1x16_1_0 : S16x1.Transposes [1, 0] S1x16
  bcast_S5200000x1_S5200000x16_0_1 : S5200000x1.BroadcastsInDim S5200000x16 (![0, 1] : Fin 2 → Fin S5200000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  transposes_S1x16_S16x1_1_0 : S1x16.Transposes [1, 0] S16x1
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  scatter_S200000_S5200000x1_S5200000_n_0_0_1_wf : ScatterDims.WF S200000 S5200000x1 S5200000 [] [0] [0] 1
  gather_S200000_S5200000x1_S5200000_n_0_n_n_0_1_1_wf : GatherDims.WF S200000 S5200000x1 S5200000 [] [0] [] [0] [] 1 ![1]
  dot_S200000x1_S1x16_S200000x16_1_0_0_1_n_n_wf : DotDims.WF S200000x1 S1x16 S200000x16 [1] [0] [0] [1] [] []
  gather_S200000x16_S5200000x1_S5200000x16_1_0_n_n_0_1_116_wf : GatherDims.WF S200000x16 S5200000x1 S5200000x16 [1] [0] [] [0] [] 1 ![1, 16]
  scatter_S200000x16_S5200000x1_S5200000x16_1_0_0_1_wf : ScatterDims.WF S200000x16 S5200000x1 S5200000x16 [1] [0] [0] 1
  dot_S200000x16_S16x1_S200000x1_1_0_0_1_n_n_wf : DotDims.WF S200000x16 S16x1 S200000x1 [1] [0] [0] [1] [] []
  gather_S200000x1_S5200000x1_S5200000x1_1_0_n_n_0_1_11_wf : GatherDims.WF S200000x1 S5200000x1 S5200000x1 [1] [0] [] [0] [] 1 ![1, 1]
  scatter_S200000x1_S5200000x1_S5200000x1_1_0_0_1_wf : ScatterDims.WF S200000x1 S5200000x1 S5200000x1 [1] [0] [0] 1

variable [Facts₀]

def scatter_S200000_S5200000x1_S5200000_n_0_0_1 : ScatterDims S200000 S5200000x1 S5200000 where
  updateWindowDims := []
  insertedWindowDims := [0]
  scatterDimsToOperandDims := [0]
  indexVectorDim := 1
  wf := scatter_S200000_S5200000x1_S5200000_n_0_0_1_wf
def gather_S200000_S5200000x1_S5200000_n_0_n_n_0_1_1 : GatherDims S200000 S5200000x1 S5200000 where
  offsetDims := []
  collapsedSliceDims := [0]
  operandBatchingDims := []
  startIndicesBatchingDims := []
  startIndexMap := [0]
  indexVectorDim := 1
  sliceSizes := ![1]
  wf := gather_S200000_S5200000x1_S5200000_n_0_n_n_0_1_1_wf
def dot_S200000x1_S1x16_S200000x16_1_0_0_1_n_n : DotDims S200000x1 S1x16 S200000x16 where
  lhsContracting := [1]
  rhsContracting := [0]
  lhsNonContracting := [0]
  rhsNonContracting := [1]
  lhsBatch := []
  rhsBatch := []
  wf := dot_S200000x1_S1x16_S200000x16_1_0_0_1_n_n_wf
def gather_S200000x16_S5200000x1_S5200000x16_1_0_n_n_0_1_116 : GatherDims S200000x16 S5200000x1 S5200000x16 where
  offsetDims := [1]
  collapsedSliceDims := [0]
  operandBatchingDims := []
  startIndicesBatchingDims := []
  startIndexMap := [0]
  indexVectorDim := 1
  sliceSizes := ![1, 16]
  wf := gather_S200000x16_S5200000x1_S5200000x16_1_0_n_n_0_1_116_wf
def scatter_S200000x16_S5200000x1_S5200000x16_1_0_0_1 : ScatterDims S200000x16 S5200000x1 S5200000x16 where
  updateWindowDims := [1]
  insertedWindowDims := [0]
  scatterDimsToOperandDims := [0]
  indexVectorDim := 1
  wf := scatter_S200000x16_S5200000x1_S5200000x16_1_0_0_1_wf
def dot_S200000x16_S16x1_S200000x1_1_0_0_1_n_n : DotDims S200000x16 S16x1 S200000x1 where
  lhsContracting := [1]
  rhsContracting := [0]
  lhsNonContracting := [0]
  rhsNonContracting := [1]
  lhsBatch := []
  rhsBatch := []
  wf := dot_S200000x16_S16x1_S200000x1_1_0_0_1_n_n_wf
def gather_S200000x1_S5200000x1_S5200000x1_1_0_n_n_0_1_11 : GatherDims S200000x1 S5200000x1 S5200000x1 where
  offsetDims := [1]
  collapsedSliceDims := [0]
  operandBatchingDims := []
  startIndicesBatchingDims := []
  startIndexMap := [0]
  indexVectorDim := 1
  sliceSizes := ![1, 1]
  wf := gather_S200000x1_S5200000x1_S5200000x1_1_0_n_n_0_1_11_wf
def scatter_S200000x1_S5200000x1_S5200000x1_1_0_0_1 : ScatterDims S200000x1 S5200000x1 S5200000x1 where
  updateWindowDims := [1]
  insertedWindowDims := [0]
  scatterDimsToOperandDims := [0]
  indexVectorDim := 1
  wf := scatter_S200000x1_S5200000x1_S5200000x1_1_0_0_1_wf

class Facts : Prop extends Facts₀ where

variable [Facts]
-- ==== Proof.IndexLib.lean ====
import Idealize.ShloMosaic.PureOps.Ideal
import Idealize.ShloMosaic.Lib.ValueIdx
noncomputable section
namespace Cert.IndexLib
open Idealize.ShloMosaic Idealize.ShloMosaic.ValueIdx

/-- the node axis: 200000 nodes -/
abbrev SN : Shape := ⟨1, ![200000]⟩
/-- the edge axis: 5200000 edges -/
abbrev SE : Shape := ⟨1, ![5200000]⟩
/-- one column per edge -/
abbrev SEx1 : Shape := ⟨2, ![5200000, 1]⟩
/-- sixteen features per node -/
abbrev SNx16 : Shape := ⟨2, ![200000, 16]⟩
/-- sixteen features per edge -/
abbrev SEx16 : Shape := ⟨2, ![5200000, 16]⟩
/-- one column per node -/
abbrev SNx1 : Shape := ⟨2, ![200000, 1]⟩

/-- gather of a node vector along the edges' start indices -/
def gath1 : GatherDims SN SEx1 SE where
  offsetDims := []
  collapsedSliceDims := [0]
  operandBatchingDims := []
  startIndicesBatchingDims := []
  startIndexMap := [0]
  indexVectorDim := 1
  sliceSizes := ![1]

/-- gather of whole 16-feature node rows along the edges' start indices -/
def gath16 : GatherDims SNx16 SEx1 SEx16 where
  offsetDims := [1]
  collapsedSliceDims := [0]
  operandBatchingDims := []
  startIndicesBatchingDims := []
  startIndexMap := [0]
  indexVectorDim := 1
  sliceSizes := ![1, 16]

/-- gather of whole one-column node rows along the edges' start indices -/
def gathx1 : GatherDims SNx1 SEx1 SEx1 where
  offsetDims := [1]
  collapsedSliceDims := [0]
  operandBatchingDims := []
  startIndicesBatchingDims := []
  startIndexMap := [0]
  indexVectorDim := 1
  sliceSizes := ![1, 1]

/-- scatter of an edge vector into the nodes -/
def scat1 : ScatterDims SN SEx1 SE where
  updateWindowDims := []
  insertedWindowDims := [0]
  scatterDimsToOperandDims := [0]
  indexVectorDim := 1

/-- scatter of 16-feature edge rows into the node rows -/
def scat16 : ScatterDims SNx16 SEx1 SEx16 where
  updateWindowDims := [1]
  insertedWindowDims := [0]
  scatterDimsToOperandDims := [0]
  indexVectorDim := 1

/-- scatter of one-column edge rows into the node rows -/
def scatx1 : ScatterDims SNx1 SEx1 SEx1 where
  updateWindowDims := [1]
  insertedWindowDims := [0]
  scatterDimsToOperandDims := [0]
  indexVectorDim := 1

/-- edge e's node under a gather: its start index read signed, negative to 0, clamped to the last node -/
def γ (I : IVec SEx1 32) (e : Fin 5200000) : Fin 200000 := ⟨min (I (ix2 e 0)).toInt.toNat 199999, by omega⟩
/-- the edges a scatter lands on node i: start index read signed equals i -/
def σ (I : IVec SEx1 32) (i : Fin 200000) : Finset (Fin 5200000) := Finset.univ.filter (fun e => (I (ix2 e 0)).toInt = (i.val : Int))

/-- an in-range destination is its own gather node: if v read signed is n < 200000 then v is not negative and clamps to n -/
theorem clamp_of_lands (v : BitVec 32) (n : Nat) (hn : n < 200000) (h : v.toInt = (n : Int)) :
    ¬ (v.toInt < 0) ∧ min v.toInt.toNat 199999 = n := by
  rw [h]
  refine ⟨by omega, ?_⟩
  rw [Int.toNat_natCast]
  omega

/-! ## The gathers read at an index -/

/-- a gathered node vector at edge e is the vector at e's node -/
theorem gather1_apply {α : Type} (x : SN.Idx → α) (I : IVec SEx1 32) (e : Fin 5200000) :
    Host.gather gath1 x I (ix1 e) = x (ix1 (γ I e)) := by
  unfold Host.gather
  congr 1
  funext a
  obtain rfl : a = 0 := Subsingleton.elim _ _
  refine Fin.ext ?_
  show gath1.start (ix1 e) I 0 + gath1.batchCoord (ix1 e) 0 + gath1.offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gath1.startIndexMap from List.mem_singleton.mpr rfl)]
  have hsi : gath1.siIdx (ix1 e) ⟨List.idxOf (0 : Fin 1) gath1.startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- a gathered 16-feature node array at edge e, feature f, is the array at e's node, feature f -/
theorem gather16_apply {α : Type} (x : SNx16.Idx → α) (I : IVec SEx1 32) (e : Fin 5200000) (f : Fin 16) :
    Host.gather gath16 x I (ix2 e f) = x (ix2 (γ I e) f) := by
  unfold Host.gather
  congr 1
  funext a
  refine Fin.ext ?_
  match a with
  | ⟨0, _⟩ =>
    show gath16.start (ix2 e f) I 0 + gath16.batchCoord (ix2 e f) 0 + gath16.offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gath16.startIndexMap from List.mem_singleton.mpr rfl)]
    have hsi : gath16.siIdx (ix2 e f) ⟨List.idxOf (0 : Fin 2) gath16.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show gath16.start (ix2 e f) I 1 + gath16.batchCoord (ix2 e f) 1 + gath16.offCoord (ix2 e f) 1 = _
    rw [GatherDims.batchCoord_eq_zero _ _ _ List.not_mem_nil]
    have hst : gath16.start (ix2 e f) I 1 = 0 := by
      unfold GatherDims.start
      rw [dif_neg (show ¬ (1 : Fin 2) ∈ gath16.startIndexMap by decide)]
    have hoff : gath16.offCoord (ix2 e f) 1 = f.val := by
      unfold GatherDims.offCoord
      rw [dif_pos (show (1 : Fin 2) ∈ gath16.sKept by decide)]
      rfl
    rw [hst, hoff]
    simp only [Nat.add_zero, Nat.zero_add]

/-- a gathered one-column node array at edge e is the array at e's node -/
theorem gatherx1_apply {α : Type} (x : SNx1.Idx → α) (I : IVec SEx1 32) (e : Fin 5200000) (c : Fin 1) :
    Host.gather gathx1 x I (ix2 e c) = x (ix2 (γ I e) c) := by
  unfold Host.gather
  congr 1
  funext a
  refine Fin.ext ?_
  match a with
  | ⟨0, _⟩ =>
    show gathx1.start (ix2 e c) I 0 + gathx1.batchCoord (ix2 e c) 0 + gathx1.offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gathx1.startIndexMap from List.mem_singleton.mpr rfl)]
    have hsi : gathx1.siIdx (ix2 e c) ⟨List.idxOf (0 : Fin 2) gathx1.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show gathx1.start (ix2 e c) I 1 + gathx1.batchCoord (ix2 e c) 1 + gathx1.offCoord (ix2 e c) 1 = _
    rw [GatherDims.batchCoord_eq_zero _ _ _ List.not_mem_nil]
    have hst : gathx1.start (ix2 e c) I 1 = 0 := by
      unfold GatherDims.start
      rw [dif_neg (show ¬ (1 : Fin 2) ∈ gathx1.startIndexMap by decide)]
    have hoff : gathx1.offCoord (ix2 e c) 1 = c.val := by
      unfold GatherDims.offCoord
      rw [dif_pos (show (1 : Fin 2) ∈ gathx1.sKept by decide)]
      rfl
    rw [hst, hoff]
    simp only [Nat.add_zero, Nat.zero_add]

/-! ## Scatter-add read at an index -/

/-- an update lands on operand index i exactly when, on every axis, its start plus its window coordinate is i's coordinate -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have h1 := h a
      rw [← hi]
      show d.start j idx a + (d.window j a : Int) = ((d.start j idx a + (d.window j a : Int)).toNat : Int)
      omega
    · intro hi
      funext a
      refine Fin.ext ?_
      have h1 := hi a
      have h2 := h a
      show (d.start j idx a + (d.window j a : Int)).toNat = (i a).val
      omega
  · rename_i h
    constructor
    · intro hn
      cases hn
    · intro hi
      exfalso
      apply h
      intro a
      have h1 := hi a
      have h2 := (i a).isLt
      omega

/-- a rank-1 index set is its one coordinate range -/
def idxEquiv1 {n : Nat} : (⟨1, ![n]⟩ : Shape).Idx ≃ Fin n where
  toFun j := j 0
  invFun e := ix1 e
  left_inv j := (eq_ix1 j).symm
  right_inv _ := rfl

/-- a sum over the rank-1 indices selected by a condition on the coordinate is the sum over the coordinates satisfying it -/
theorem sum_filter_idx1 {M : Type*} [AddCommMonoid M] {n : Nat} (Q : (⟨1, ![n]⟩ : Shape).Idx → Prop) [DecidablePred Q]
    (P : Fin n → Prop) [DecidablePred P] (hQ : ∀ j, Q j ↔ P (j 0)) (u : (⟨1, ![n]⟩ : Shape).Idx → M) :
    ∑ j ∈ Finset.univ.filter Q, u j = ∑ e ∈ Finset.univ.filter P, u (ix1 e) := by
  refine Finset.sum_nbij' (fun j => j 0) (fun e => ix1 e) ?_ ?_ ?_ ?_ ?_
  · intro j hj
    exact Finset.mem_filter.mpr ⟨Finset.mem_univ _, (hQ j).mp (Finset.mem_filter.mp hj).2⟩
  · intro e he
    exact Finset.mem_filter.mpr ⟨Finset.mem_univ _, (hQ (ix1 e)).mpr (Finset.mem_filter.mp he).2⟩
  · intro j _
    exact (eq_ix1 j).symm
  · intro e _
    rfl
  · intro j _
    exact congrArg u (eq_ix1 j)

/-- a sum over the rank-2 indices selected by a condition on the row and a fixed column f is the sum over the rows satisfying the condition, read at column f -/
theorem sum_filter_idx2 {M : Type*} [AddCommMonoid M] {n0 n1 : Nat} (Q : (⟨2, ![n0, n1]⟩ : Shape).Idx → Prop)
    [DecidablePred Q] (P : Fin n0 → Prop) [DecidablePred P] (f : Fin n1) (hQ : ∀ j, Q j ↔ P (j 0) ∧ j 1 = f)
    (u : (⟨2, ![n0, n1]⟩ : Shape).Idx → M) :
    ∑ j ∈ Finset.univ.filter Q, u j = ∑ e ∈ Finset.univ.filter P, u (ix2 e f) := by
  have hrow : ∀ j : (⟨2, ![n0, n1]⟩ : Shape).Idx, Q j → ix2 (j 0) f = j := by
    intro j hj
    have h1 : j 1 = f := ((hQ j).mp hj).2
    rw [← h1]
    exact (eq_ix2 j).symm
  refine Finset.sum_nbij' (fun j => j 0) (fun e => ix2 e f) ?_ ?_ ?_ ?_ ?_
  · intro j hj
    exact Finset.mem_filter.mpr ⟨Finset.mem_univ _, ((hQ j).mp (Finset.mem_filter.mp hj).2).1⟩
  · intro e he
    exact Finset.mem_filter.mpr ⟨Finset.mem_univ _, (hQ (ix2 e f)).mpr ⟨(Finset.mem_filter.mp he).2, rfl⟩⟩
  · intro j hj
    exact hrow j (Finset.mem_filter.mp hj).2
  · intro e _
    rfl
  · intro j hj
    exact congrArg u (hrow j (Finset.mem_filter.mp hj).2).symm

/-- the start of an update of scat1 is its edge's start index read signed -/
theorem scat1_start0 (I : IVec SEx1 32) (j : SE.Idx) : scat1.start j I 0 = (I (ix2 (j 0) 0)).toInt := by
  unfold ScatterDims.start
  rw [dif_pos (show (0 : Fin 1) ∈ scat1.scatterDimsToOperandDims from List.mem_singleton.mpr rfl)]
  have hsi : scat1.siIdx j ⟨List.idxOf (0 : Fin 1) scat1.scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- the window coordinate of an update of scat1 is 0 -/
theorem scat1_window0 (j : SE.Idx) : scat1.window j 0 = 0 := by
  unfold ScatterDims.window
  rw [dif_neg (show ¬ (0 : Fin 1) ∈ scat1.sKept by decide)]

/-- an update of scat1 lands on node i exactly when its edge's start index read signed is i -/
theorem scat1_lands (I : IVec SEx1 32) (j : SE.Idx) (i : Fin 200000) :
    scat1.resultIdx? j I = some (ix1 i) ↔ (I (ix2 (j 0) 0)).toInt = (i.val : Int) := by
  rw [resultIdx?_eq_some_iff]
  constructor
  · intro h
    have h0 := h 0
    rw [scat1_start0, scat1_window0] at h0
    change _ = (i.val : Int) at h0
    omega
  · intro h0 a
    obtain rfl : a = 0 := Subsingleton.elim _ _
    show scat1.start j I 0 + (scat1.window j 0 : Int) = (i.val : Int)
    rw [scat1_start0, scat1_window0, h0]
    omega

/-- on the node axis the start of an update of scat16 is its edge's start index read signed -/
theorem scat16_start0 (I : IVec SEx1 32) (j : SEx16.Idx) : scat16.start j I 0 = (I (ix2 (j 0) 0)).toInt := by
  unfold ScatterDims.start
  rw [dif_pos (show (0 : Fin 2) ∈ scat16.scatterDimsToOperandDims from List.mem_singleton.mpr rfl)]
  have hsi : scat16.siIdx j ⟨List.idxOf (0 : Fin 2) scat16.scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- on the column axis the start of an update of scat16 is 0 -/
theorem scat16_start1 (I : IVec SEx1 32) (j : SEx16.Idx) : scat16.start j I 1 = 0 := by
  unfold ScatterDims.start
  rw [dif_neg (show ¬ (1 : Fin 2) ∈ scat16.scatterDimsToOperandDims by decide)]

/-- on the node axis the window coordinate of an update of scat16 is 0 -/
theorem scat16_window0 (j : SEx16.Idx) : scat16.window j 0 = 0 := by
  unfold ScatterDims.window
  rw [dif_neg (show ¬ (0 : Fin 2) ∈ scat16.sKept by decide)]

/-- on the column axis the window coordinate of an update of scat16 is its column -/
theorem scat16_window1 (j : SEx16.Idx) : scat16.window j 1 = (j 1).val := by
  unfold ScatterDims.window
  rw [dif_pos (show (1 : Fin 2) ∈ scat16.sKept by decide)]
  rfl

/-- an update of scat16 lands on (i, f) exactly when its edge's start index read signed is i and its column is f -/
theorem scat16_lands (I : IVec SEx1 32) (j : SEx16.Idx) (i : Fin 200000) (f : Fin 16) :
    scat16.resultIdx? j I = some (ix2 i f) ↔ (I (ix2 (j 0) 0)).toInt = (i.val : Int) ∧ j 1 = f := by
  rw [resultIdx?_eq_some_iff]
  constructor
  · intro h
    have h0 := h 0
    have h1 := h 1
    rw [scat16_start0, scat16_window0] at h0
    rw [scat16_start1, scat16_window1] at h1
    change _ = (i.val : Int) at h0
    change _ = (f.val : Int) at h1
    refine ⟨by omega, Fin.ext (by omega)⟩
  · rintro ⟨h0, h1⟩ a
    match a with
    | ⟨0, _⟩ =>
      show scat16.start j I 0 + (scat16.window j 0 : Int) = (i.val : Int)
      rw [scat16_start0, scat16_window0, h0]
      omega
    | ⟨1, _⟩ =>
      show scat16.start j I 1 + (scat16.window j 1 : Int) = (f.val : Int)
      rw [scat16_start1, scat16_window1, h1]
      omega

/-- on the node axis the start of an update of scatx1 is its edge's start index read signed -/
theorem scatx1_start0 (I : IVec SEx1 32) (j : SEx1.Idx) : scatx1.start j I 0 = (I (ix2 (j 0) 0)).toInt := by
  unfold ScatterDims.start
  rw [dif_pos (show (0 : Fin 2) ∈ scatx1.scatterDimsToOperandDims from List.mem_singleton.mpr rfl)]
  have hsi : scatx1.siIdx j ⟨List.idxOf (0 : Fin 2) scatx1.scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- on the column axis the start of an update of scatx1 is 0 -/
theorem scatx1_start1 (I : IVec SEx1 32) (j : SEx1.Idx) : scatx1.start j I 1 = 0 := by
  unfold ScatterDims.start
  rw [dif_neg (show ¬ (1 : Fin 2) ∈ scatx1.scatterDimsToOperandDims by decide)]

/-- on the node axis the window coordinate of an update of scatx1 is 0 -/
theorem scatx1_window0 (j : SEx1.Idx) : scatx1.window j 0 = 0 := by
  unfold ScatterDims.window
  rw [dif_neg (show ¬ (0 : Fin 2) ∈ scatx1.sKept by decide)]

/-- on the column axis the window coordinate of an update of scatx1 is its column -/
theorem scatx1_window1 (j : SEx1.Idx) : scatx1.window j 1 = (j 1).val := by
  unfold ScatterDims.window
  rw [dif_pos (show (1 : Fin 2) ∈ scatx1.sKept by decide)]
  rfl

/-- an update of scatx1 lands on (i, c) exactly when its edge's start index read signed is i and its column is c -/
theorem scatx1_lands (I : IVec SEx1 32) (j : SEx1.Idx) (i : Fin 200000) (c : Fin 1) :
    scatx1.resultIdx? j I = some (ix2 i c) ↔ (I (ix2 (j 0) 0)).toInt = (i.val : Int) ∧ j 1 = c := by
  rw [resultIdx?_eq_some_iff]
  constructor
  · intro h
    have h0 := h 0
    have h1 := h 1
    rw [scatx1_start0, scatx1_window0] at h0
    rw [scatx1_start1, scatx1_window1] at h1
    change _ = (i.val : Int) at h0
    change _ = (c.val : Int) at h1
    refine ⟨by omega, Fin.ext (by omega)⟩
  · rintro ⟨h0, h1⟩ a
    match a with
    | ⟨0, _⟩ =>
      show scatx1.start j I 0 + (scatx1.window j 0 : Int) = (i.val : Int)
      rw [scatx1_start0, scatx1_window0, h0]
      omega
    | ⟨1, _⟩ =>
      show scatx1.start j I 1 + (scatx1.window j 1 : Int) = (c.val : Int)
      rw [scatx1_start1, scatx1_window1, h1]
      omega

/-- a scatter-added node vector at node i is the operand there plus the updates of the edges that land on i -/
theorem scatter1_apply (x : SN.Idx → EReal) (I : IVec SEx1 32) (u : SE.Idx → EReal) (i : Fin 200000) :
    Ideal.hostScatterAdd scat1 x I u (ix1 i) = x (ix1 i) + ∑ e ∈ σ I i, u (ix1 e) := by
  unfold Ideal.hostScatterAdd
  refine congrArg (fun t => x (ix1 i) + t) ?_
  exact sum_filter_idx1 _ (fun e => (I (ix2 e 0)).toInt = (i.val : Int)) (fun j => scat1_lands I j i) u

/-- a scatter-added 16-feature node array at (i, f) is the operand there plus the updates at feature f of the edges that land on i -/
theorem scatter16_apply (x : SNx16.Idx → EReal) (I : IVec SEx1 32) (u : SEx16.Idx → EReal) (i : Fin 200000) (f : Fin 16) :
    Ideal.hostScatterAdd scat16 x I u (ix2 i f) = x (ix2 i f) + ∑ e ∈ σ I i, u (ix2 e f) := by
  unfold Ideal.hostScatterAdd
  refine congrArg (fun t => x (ix2 i f) + t) ?_
  exact sum_filter_idx2 _ (fun e => (I (ix2 e 0)).toInt = (i.val : Int)) f (fun j => scat16_lands I j i f) u

/-- a scatter-added one-column node array at (i, c) is the operand there plus the updates of the edges that land on i -/
theorem scatterx1_apply (x : SNx1.Idx → EReal) (I : IVec SEx1 32) (u : SEx1.Idx → EReal) (i : Fin 200000) (c : Fin 1) :
    Ideal.hostScatterAdd scatx1 x I u (ix2 i c) = x (ix2 i c) + ∑ e ∈ σ I i, u (ix2 e c) := by
  unfold Ideal.hostScatterAdd
  refine congrArg (fun t => x (ix2 i c) + t) ?_
  exact sum_filter_idx2 _ (fun e => (I (ix2 e 0)).toInt = (i.val : Int)) c (fun j => scatx1_lands I j i c) u

end Cert.IndexLib
end
-- ==== Proof.RealLaws.lean ====
import Idealize.ShloMosaic.PureOps.Ideal
noncomputable section
namespace Cert.RealLaws
open Idealize.ShloMosaic

/-- an extended real that is a real number -/
def IsReal (x : EReal) : Prop := ∃ r : ℝ, x = (r : EReal)

/-- the coercion of a real number is real -/
theorem IsReal.coe (r : ℝ) : IsReal (r : EReal) := ⟨r, rfl⟩

/-- zero is real -/
theorem IsReal.zero : IsReal (0 : EReal) := ⟨0, rfl⟩

/-- one is real -/
theorem IsReal.one : IsReal (1 : EReal) := ⟨1, rfl⟩

/-- the sum of two reals is real -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- the product of two reals is real -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- the larger of two reals is one of them, hence real -/
theorem IsReal.max {x y : EReal} (hx : IsReal x) (hy : IsReal y) : IsReal (max x y) := by
  rcases max_choice x y with h | h
  · rw [h]; exact hx
  · rw [h]; exact hy

/-- a finite sum of reals is real (induction on the index set) -/
theorem IsReal.sum {ι : Type*} (s : Finset ι) (f : ι → EReal) (hf : ∀ k ∈ s, IsReal (f k)) :
    IsReal (∑ k ∈ s, f k) := by
  classical
  induction s using Finset.induction_on with
  | empty => simpa using IsReal.zero
  | insert a s ha ih =>
    rw [Finset.sum_insert ha]
    exact IsReal.add (hf a (Finset.mem_insert_self a s))
      (ih (fun k hk => hf k (Finset.mem_insert_of_mem hk)))

/-- either branch of a conditional between two reals is real -/
theorem IsReal.ite {c : Prop} [Decidable c] {x y : EReal} (hx : IsReal x) (hy : IsReal y) :
    IsReal (if c then x else y) := by
  split
  · exact hx
  · exact hy

/-- the reciprocal square root of a positive real is a real -/
theorem IsReal.rsqrt_of_pos {x : EReal} (hx : IsReal x) (hpos : 0 < x) : IsReal (Ideal.rsqrt x) := by
  obtain ⟨r, rfl⟩ := hx
  have hr : 0 < r := by exact_mod_cast hpos
  rw [Ideal.rsqrt_coe, if_neg (not_lt.mpr hr.le), if_neg hr.ne']
  exact ⟨_, rfl⟩

/-- the coercion from the reals commutes with finite sums -/
private theorem coe_sum {ι : Type*} (s : Finset ι) (f : ι → ℝ) :
    ∑ e ∈ s, ((f e : ℝ) : EReal) = ((∑ e ∈ s, f e : ℝ) : EReal) := by
  classical
  induction s using Finset.induction_on with
  | empty => simp
  | insert a s ha ih =>
    rw [Finset.sum_insert ha, Finset.sum_insert ha, ih, EReal.coe_add]

/-- One graph-convolution layer with a trailing scale c: the per-edge weight a(src)·a(dst) moves out of the segment sum as a(i) outside and a(src) inside, and c moves out, when every edge of the segment has destination i and all values are real. -/
theorem layer_scaled {ε ν : Type*} (s : Finset ε) (g gd : ε → ν) (i : ν) (hs : ∀ e ∈ s, gd e = i)
    (a p : ν → EReal) (c : EReal) (ha : ∀ n, IsReal (a n)) (hp : ∀ n, IsReal (p n)) (hc : IsReal c) :
    ∑ e ∈ s, (p (g e) * c) * (a (g e) * a (gd e)) = (a i * ∑ e ∈ s, a (g e) * p (g e)) * c := by
  -- every edge of the segment lands on i
  have h1 : ∑ e ∈ s, (p (g e) * c) * (a (g e) * a (gd e))
      = ∑ e ∈ s, (p (g e) * c) * (a (g e) * a i) :=
    Finset.sum_congr rfl (fun e he => by rw [hs e he])
  rw [h1]
  -- pass to real witnesses, where distributivity holds
  choose ar har using ha
  choose pr hpr using hp
  obtain ⟨cr, rfl⟩ := hc
  simp only [har, hpr, ← EReal.coe_mul, coe_sum]
  congr 1
  rw [Finset.mul_sum, Finset.sum_mul]
  exact Finset.sum_congr rfl (fun e _ => by ring)

/-- The same without the trailing scale. -/
theorem layer_plain {ε ν : Type*} (s : Finset ε) (g gd : ε → ν) (i : ν) (hs : ∀ e ∈ s, gd e = i)
    (a p : ν → EReal) (ha : ∀ n, IsReal (a n)) (hp : ∀ n, IsReal (p n)) :
    ∑ e ∈ s, p (g e) * (a (g e) * a (gd e)) = a i * ∑ e ∈ s, a (g e) * p (g e) := by
  -- every edge of the segment lands on i
  have h1 : ∑ e ∈ s, p (g e) * (a (g e) * a (gd e))
      = ∑ e ∈ s, p (g e) * (a (g e) * a i) :=
    Finset.sum_congr rfl (fun e he => by rw [hs e he])
  rw [h1]
  -- pass to real witnesses, where distributivity holds
  choose ar har using ha
  choose pr hpr using hp
  simp only [har, hpr, ← EReal.coe_mul, coe_sum]
  congr 1
  rw [Finset.mul_sum]
  exact Finset.sum_congr rfl (fun e _ => by ring)

end Cert.RealLaws
end
-- ==== Proof.Gcn.lean ====
/-
  The two-layer graph convolution in its two arrangements, over abstract node and edge types.

  A graph is given by the source node `g e` of each edge, the node `gd e` its destination reads as when a node
  array is indexed by it, and for each node `i` the set `L i` of edges that the aggregation lands on `i`;
  every edge of `L i` has `gd e = i`.  With a per-node weight `a` (the inverse square root of the degree), a layer
  sends a node feature `p` to  `i ↦ ∑ e ∈ L i, p (g e) · (a (g e) · a (gd e))`.

  The first arrangement projects with the dense weights before aggregating and carries the per-edge weight
  `a (g e) · a (gd e)`; the second aggregates the `a`-scaled feature first, scales by `a i` after, and applies the
  dense weights in between.  They agree when all values are real numbers, by distributivity (which fails on the
  extended reals at the infinities, hence the hypotheses).
-/
import proofs.«135276_j39908836114582_2_alg».proof.Proof.RealLaws

noncomputable section

namespace Cert.Gcn

open Cert.RealLaws Idealize.ShloMosaic

variable {ν ε : Type}

/-- The degree of node `i`: one unit per edge landing on it. -/
def deg (one : EReal) (L : ν → Finset ε) (i : ν) : EReal := ∑ _e ∈ L i, one

/-- The normalisation weight of node `i`: `deg^(-1/2)` where the degree is positive, otherwise `0`. -/
def dinv (one : EReal) (L : ν → Finset ε) (i : ν) : EReal :=
  if 0 < deg one L i then Ideal.rsqrt (deg one L i) else 0

/-- The weight of every node is a real number: the degree is a finite sum of a real unit, and the reciprocal
    square root of a positive real is real. -/
theorem dinv_real (one : EReal) (h1 : IsReal one) (L : ν → Finset ε) (i : ν) : IsReal (dinv one L i) := by
  unfold dinv
  have hd : IsReal (deg one L i) := IsReal.sum _ _ (fun _ _ => h1)
  by_cases h : 0 < deg one L i
  · rw [if_pos h]; exact IsReal.rsqrt_of_pos hd h
  · rw [if_neg h]; exact IsReal.zero

/-- First layer, projection before aggregation: feature `f` of node `i`. -/
def projAgg1 (a X : ν → EReal) (W1 B1 : Fin 16 → EReal) (g gd : ε → ν) (L : ν → Finset ε) (i : ν) (f : Fin 16) : EReal :=
  (∑ e ∈ L i, (X (g e) * W1 f) * (a (g e) * a (gd e))) + B1 f

/-- Second layer's projection of the rectified first layer: one number per node. -/
def projHidden (a X : ν → EReal) (W1 B1 W2 : Fin 16 → EReal) (g gd : ε → ν) (L : ν → Finset ε) (n : ν) : EReal :=
  ∑ f : Fin 16, max (projAgg1 a X W1 B1 g gd L n f) 0 * W2 f

/-- Both layers, projection before aggregation. -/
def projAggOut (a X : ν → EReal) (W1 B1 W2 : Fin 16 → EReal) (B2 : EReal) (g gd : ε → ν) (L : ν → Finset ε) (i : ν) : EReal :=
  (∑ e ∈ L i, projHidden a X W1 B1 W2 g gd L (g e) * (a (g e) * a (gd e))) + B2

/-- First layer's aggregate of the scaled raw feature. -/
def aggRaw (a X : ν → EReal) (g : ε → ν) (L : ν → Finset ε) (i : ν) : EReal := ∑ e ∈ L i, a (g e) * X (g e)

/-- The node-side stage between the two aggregations: scale, project, bias, rectify, project, scale. -/
def nodeStage (a X : ν → EReal) (W1 B1 W2 : Fin 16 → EReal) (g : ε → ν) (L : ν → Finset ε) (n : ν) : EReal :=
  a n * ∑ f : Fin 16, max ((a n * aggRaw a X g L n) * W1 f + B1 f) 0 * W2 f

/-- Both layers, aggregation on the narrow side. -/
def aggProjOut (a X : ν → EReal) (W1 B1 W2 : Fin 16 → EReal) (B2 : EReal) (g : ε → ν) (L : ν → Finset ε) (i : ν) : EReal :=
  a i * (∑ e ∈ L i, nodeStage a X W1 B1 W2 g L (g e)) + B2

/-- The first layers agree: the dense weight and the destination's weight leave the sum. -/
theorem projAgg1_eq (a X : ν → EReal) (W1 B1 : Fin 16 → EReal) (g gd : ε → ν) (L : ν → Finset ε)
    (ha : ∀ n, IsReal (a n)) (hX : ∀ n, IsReal (X n)) (hW1 : ∀ f, IsReal (W1 f))
    (hL : ∀ i, ∀ e ∈ L i, gd e = i) (n : ν) (f : Fin 16) :
    projAgg1 a X W1 B1 g gd L n f = (a n * aggRaw a X g L n) * W1 f + B1 f := by
  unfold projAgg1 aggRaw
  rw [layer_scaled (L n) g gd n (hL n) a X (W1 f) ha hX (hW1 f)]

/-- The two arrangements of the two layers agree at every node when all values are real. -/
theorem aggProj_eq_projAgg (a X : ν → EReal) (W1 B1 W2 : Fin 16 → EReal) (B2 : EReal) (g gd : ε → ν) (L : ν → Finset ε)
    (ha : ∀ n, IsReal (a n)) (hX : ∀ n, IsReal (X n)) (hW1 : ∀ f, IsReal (W1 f)) (hB1 : ∀ f, IsReal (B1 f))
    (hW2 : ∀ f, IsReal (W2 f)) (hL : ∀ i, ∀ e ∈ L i, gd e = i) (i : ν) :
    aggProjOut a X W1 B1 W2 B2 g L i = projAggOut a X W1 B1 W2 B2 g gd L i := by
  have hH : ∀ n, IsReal (projHidden a X W1 B1 W2 g gd L n) := fun n =>
    IsReal.sum _ _ (fun f _ => IsReal.mul (IsReal.max (by
      rw [projAgg1_eq a X W1 B1 g gd L ha hX hW1 hL n f]
      exact IsReal.add (IsReal.mul (IsReal.mul (ha n) (IsReal.sum _ _ (fun e _ => IsReal.mul (ha _) (hX _)))) (hW1 f)) (hB1 f))
      IsReal.zero) (hW2 f))
  unfold projAggOut aggProjOut
  rw [layer_plain (L i) g gd i (hL i) a (projHidden a X W1 B1 W2 g gd L) ha hH]
  congr 2
  refine Finset.sum_congr rfl (fun e _ => ?_)
  unfold nodeStage projHidden
  congr 1
  refine Finset.sum_congr rfl (fun f _ => ?_)
  rw [projAgg1_eq a X W1 B1 g gd L ha hX hW1 hL (g e) f]

end Cert.Gcn

end
-- ==== Proof.RefValue.lean ====
import proofs.«135276_j39908836114582_2_alg».proof.Proof.RefRead
import proofs.«135276_j39908836114582_2_alg».proof.Proof.IndexLib
import proofs.«135276_j39908836114582_2_alg».proof.Proof.Gcn
import Idealize.ShloMosaic.Lib.ValueIdx
set_option maxRecDepth 16384
noncomputable section
namespace Cert.ReferenceIdeal.RefValue
open Idealize.ShloMosaic Idealize.ShloMosaic.ValueIdx Cert.ReferenceIdeal Cert.ReferenceIdeal.ReadP Cert.IndexLib

/-- the unit of the degree count: the word 1.0 -/
abbrev ONE : EReal := Ideal.ofBits .f32 0x3F800000#32

/-! ## The program's dimension-number records are the index library's -/

/-- the program's rank-1 gather record is the library's -/
theorem gath1_eq : gather_S200000_S5200000x1_S5200000_n_0_n_n_0_1_1 = gath1 := rfl
/-- the program's 16-feature gather record is the library's -/
theorem gath16_eq : gather_S200000x16_S5200000x1_S5200000x16_1_0_n_n_0_1_116 = gath16 := rfl
/-- the program's one-column gather record is the library's -/
theorem gathx1_eq : gather_S200000x1_S5200000x1_S5200000x1_1_0_n_n_0_1_11 = gathx1 := rfl
/-- the program's rank-1 scatter record is the library's -/
theorem scat1_eq : scatter_S200000_S5200000x1_S5200000_n_0_0_1 = scat1 := rfl
/-- the program's 16-feature scatter record is the library's -/
theorem scat16_eq : scatter_S200000x16_S5200000x1_S5200000x16_1_0_0_1 = scat16 := rfl
/-- the program's one-column scatter record is the library's -/
theorem scatx1_eq : scatter_S200000x1_S5200000x1_S5200000x1_1_0_0_1 = scatx1 := rfl

/-! ## The second layer recomputes the first layer's index arrays and weights -/

section Twins
variable (x5 : (⟨S2x5000000, .i32⟩ : BufTy).Contents (Elt Ideal))

/-- the second self-loop index list is the first -/
theorem v50_eq : val_main_v50 (F := Ideal) = val_main_v5 (F := Ideal) := rfl
/-- the second source list with self loops is the first -/
theorem v51_eq : val_main_v51 (F := Ideal) x5 = val_main_v6 (F := Ideal) x5 := rfl
/-- the second destination list with self loops is the first -/
theorem v52_eq : val_main_v52 (F := Ideal) x5 = val_main_v7 (F := Ideal) x5 := rfl
/-- the raw destination column is the same array each time it is formed -/
theorem v44_eq : val_main_v44 (F := Ideal) x5 = val_main_v10 (F := Ideal) x5 := rfl
theorem v55_eq : val_main_v55 (F := Ideal) x5 = val_main_v10 (F := Ideal) x5 := rfl
theorem v88_eq : val_main_v88 (F := Ideal) x5 = val_main_v10 (F := Ideal) x5 := rfl
/-- the second degree count is the first -/
theorem v56_eq : val_main_v56 (F := Ideal) x5 = val_main_v11 (F := Ideal) x5 := rfl
/-- the second weight array is the first -/
theorem v60_eq : val_main_v60 (F := Ideal) x5 = val_main_v15 (F := Ideal) x5 := rfl
/-- the normalised source column is the same array each time it is formed -/
theorem v38_eq : val_main_v38 (F := Ideal) x5 = val_main_v21 (F := Ideal) x5 := rfl
theorem v66_eq : val_main_v66 (F := Ideal) x5 = val_main_v21 (F := Ideal) x5 := rfl
theorem v83_eq : val_main_v83 (F := Ideal) x5 = val_main_v21 (F := Ideal) x5 := rfl
/-- the second normalised destination column is the first -/
theorem v73_eq : val_main_v73 (F := Ideal) x5 = val_main_v28 (F := Ideal) x5 := rfl

end Twins

/-! ## Small generic facts -/

/-- a select on "d is greater than 0" is the conditional on 0 < d -/
theorem select_gt_zero (d r z : EReal) :
    Scalar.select (Ideal.cmp .ogt d 0) r z = if 0 < d then r else z := by
  by_cases h : 0 < d
  · have hc : Ideal.cmp .ogt d 0 = 1#1 := by
      unfold Ideal.cmp
      simp only [h, decide_true]
      rfl
    rw [hc, select_one, if_pos h]
  · have hc : Ideal.cmp .ogt d 0 = 0#1 := by
      unfold Ideal.cmp
      simp only [h, decide_false]
      rfl
    rw [hc, select_zero, if_neg h]

/-- the degree is the sum of one unit per landing edge -/
theorem deg_def {ν ε : Type} (one : EReal) (L : ν → Finset ε) (i : ν) :
    Cert.Gcn.deg one L i = ∑ _e ∈ L i, one := rfl

/-- the weight is the conditional reciprocal square root of the degree -/
theorem dinv_def {ν ε : Type} (one : EReal) (L : ν → Finset ε) (i : ν) :
    Cert.Gcn.dinv one L i = if 0 < Cert.Gcn.deg one L i then Ideal.rsqrt (Cert.Gcn.deg one L i) else 0 := rfl

/-! ## The node weights -/

section Weights
variable (x5 : (⟨S2x5000000, .i32⟩ : BufTy).Contents (Elt Ideal))

local notation "Lx" => σ (val_main_v10 (F := Ideal) x5)
local notation "Aw" => Cert.Gcn.dinv ONE (σ (val_main_v10 (F := Ideal) x5))
local notation "Gs" => γ (val_main_v21 (F := Ideal) x5)
local notation "Gd" => γ (val_main_v28 (F := Ideal) x5)

/-- the degree stage is a scatter-add of units into zeros along the raw destinations -/
theorem v11_def : val_main_v11 (F := Ideal) x5
    = Ideal.hostScatterAdd scat1 (val_main_v9 (F := Ideal)) (val_main_v10 (F := Ideal) x5) (val_main_v8 (F := Ideal)) := rfl

/-- the degree stage at node n: one unit per edge landing on n -/
theorem deg_apply (n : Fin 200000) :
    val_main_v11 (F := Ideal) x5 (ix1 n) = Cert.Gcn.deg ONE Lx n := by
  have h9 : val_main_v9 (F := Ideal) (ix1 n) = 0 := by
    rw [val_main_v9_apply, val_main_cst_0_apply]
    exact Ideal.ofBits_zero_f32
  have h8 : ∀ e : Fin 5200000, val_main_v8 (F := Ideal) (ix1 e) = ONE := by
    intro e
    rw [val_main_v8_apply, val_main_cst_apply]
    rfl
  rw [v11_def, scatter1_apply, h9, zero_add, deg_def]
  exact Finset.sum_congr rfl (fun e _ => h8 e)

/-- The reference's weight stage at node n is deg^(-1/2) where the degree — one unit per edge landing on n — is positive, else 0. -/
theorem dinv_apply (n : Fin 200000) :
    val_main_v15 (F := Ideal) x5 (ix1 n) = Cert.Gcn.dinv ONE (σ (val_main_v10 (F := Ideal) x5)) n := by
  have h12 : val_main_v12 (F := Ideal) (ix1 n) = 0 := by
    rw [val_main_v12_apply, val_main_cst_1_apply]
    exact Ideal.ofBits_zero_f32
  have hz : val_main_call0_v1 (F := Ideal) (ix1 n) = 0 := by
    rw [val_main_call0_v1_apply, val_main_call0_v0_apply, val_main_cst_2_apply]
    exact Ideal.ofBits_zero_f32
  rw [val_main_v15_apply, val_main_v13_apply, val_main_v14_apply, deg_apply, h12, hz,
    Ideal.cmpf_def, Ideal.hostUnary_rsqrt_def, select_gt_zero, dinv_def]

/-- the first layer's source-weight gather -/
theorem v22_def : val_main_v22 (F := Ideal) x5
    = Host.gather gath1 (val_main_v15 (F := Ideal) x5) (val_main_v21 (F := Ideal) x5) := rfl
/-- the first layer's destination-weight gather -/
theorem v29_def : val_main_v29 (F := Ideal) x5
    = Host.gather gath1 (val_main_v15 (F := Ideal) x5) (val_main_v28 (F := Ideal) x5) := rfl

/-- the per-edge weight of the first layer: the source's weight times the destination's -/
theorem v30_apply (e : Fin 5200000) :
    val_main_v30 (F := Ideal) x5 (ix1 e) = Aw (Gs e) * Aw (Gd e) := by
  rw [val_main_v30_apply, v22_def, v29_def, gather1_apply, gather1_apply, dinv_apply, dinv_apply]
  rfl

/-- the per-edge weight of the second layer is the first layer's -/
theorem v75_eq : val_main_v75 (F := Ideal) x5 = val_main_v30 (F := Ideal) x5 := rfl

end Weights

/-! ## The two layers -/

/-- the first layer at node i, feature f: the weighted aggregate of the projected feature, plus the bias -/
theorem projAgg1_def {ν ε : Type} (a X : ν → EReal) (W1 B1 : Fin 16 → EReal) (g gd : ε → ν) (L : ν → Finset ε)
    (i : ν) (f : Fin 16) :
    Cert.Gcn.projAgg1 a X W1 B1 g gd L i f = (∑ e ∈ L i, (X (g e) * W1 f) * (a (g e) * a (gd e))) + B1 f := rfl

/-- the hidden projection at node n: the rectified first layer against the second dense weights -/
theorem projHidden_def {ν ε : Type} (a X : ν → EReal) (W1 B1 W2 : Fin 16 → EReal) (g gd : ε → ν) (L : ν → Finset ε)
    (n : ν) :
    Cert.Gcn.projHidden a X W1 B1 W2 g gd L n = ∑ f : Fin 16, max (Cert.Gcn.projAgg1 a X W1 B1 g gd L n f) 0 * W2 f := rfl

/-- both layers at node i: the weighted aggregate of the hidden projection, plus the bias -/
theorem projAggOut_def {ν ε : Type} (a X : ν → EReal) (W1 B1 W2 : Fin 16 → EReal) (B2 : EReal) (g gd : ε → ν)
    (L : ν → Finset ε) (i : ν) :
    Cert.Gcn.projAggOut a X W1 B1 W2 B2 g gd L i
      = (∑ e ∈ L i, Cert.Gcn.projHidden a X W1 B1 W2 g gd L (g e) * (a (g e) * a (gd e))) + B2 := rfl

section Layers
variable (x0 : (⟨S200000x4, .f32⟩ : BufTy).Contents (Elt Ideal)) (x1 : (⟨S16x1, .f32⟩ : BufTy).Contents (Elt Ideal))
  (x2 : (⟨S16, .f32⟩ : BufTy).Contents (Elt Ideal)) (x3 : (⟨S1x16, .f32⟩ : BufTy).Contents (Elt Ideal))
  (x4 : (⟨S1, .f32⟩ : BufTy).Contents (Elt Ideal)) (x5 : (⟨S2x5000000, .i32⟩ : BufTy).Contents (Elt Ideal))

local notation "Lx" => σ (val_main_v10 (F := Ideal) x5)
local notation "Aw" => Cert.Gcn.dinv ONE (σ (val_main_v10 (F := Ideal) x5))
local notation "Gs" => γ (val_main_v21 (F := Ideal) x5)
local notation "Gd" => γ (val_main_v28 (F := Ideal) x5)
local notation "Xn" => (fun n : Fin 200000 => x0 (ix2 n 0))
local notation "W1" => (fun f : Fin 16 => x1 (ix2 f 0))
local notation "B1" => (fun f : Fin 16 => x2 (ix1 f))
local notation "W2" => (fun f : Fin 16 => x3 (ix2 0 f))

/-- the dense projection of the first feature column: node n, feature f -/
theorem v32_apply (n : Fin 200000) (f : Fin 16) :
    val_main_v32 (F := Ideal) x0 x1 (ix2 n f) = x0 (ix2 n 0) * x1 (ix2 f 0) := by
  have hl : idx_main_v4 (lidx_main_v32 (ix2 n f) 0) = ix2 n 0 :=
    funext fun a => Fin.ext (by match a with | ⟨0, _⟩ => rfl | ⟨1, _⟩ => rfl)
  have hr : idx_main_v31 (ridx_main_v32 (ix2 n f) 0) = ix2 f 0 :=
    funext fun a => Fin.ext (by match a with | ⟨0, _⟩ => rfl | ⟨1, _⟩ => rfl)
  rw [val_main_v32_apply, Fin.sum_univ_one, val_main_v4_apply, val_main_v31_apply, hl, hr]

/-- the first layer's feature gather reads the projection along the normalised sources -/
theorem v39_def : val_main_v39 (F := Ideal) x0 x1 x5
    = Host.gather gath16 (val_main_v32 (F := Ideal) x0 x1) (val_main_v21 (F := Ideal) x5) := rfl

/-- the edge weight broadcast over the features -/
theorem v41_apply (e : Fin 5200000) (f : Fin 16) :
    val_main_v41 (F := Ideal) x5 (ix2 e f) = Aw (Gs e) * Aw (Gd e) := by
  have hi : idx_main_v40 (idx_main_v41 (ix2 e f)) = ix1 e :=
    funext fun a => Fin.ext (by match a with | ⟨0, _⟩ => rfl)
  rw [val_main_v41_apply, val_main_v40_apply, hi, v30_apply]

/-- the projected feature gathered along the sources, times the edge weight -/
theorem v42_apply (e : Fin 5200000) (f : Fin 16) :
    val_main_v42 (F := Ideal) x0 x1 x5 (ix2 e f)
      = (x0 (ix2 (Gs e) 0) * x1 (ix2 f 0)) * (Aw (Gs e) * Aw (Gd e)) := by
  rw [val_main_v42_apply, v41_apply, v39_def, gather16_apply, v32_apply]
  rfl

/-- the first layer's aggregation is a scatter-add into zeros along the raw destinations -/
theorem v45_def : val_main_v45 (F := Ideal) x0 x1 x5
    = Ideal.hostScatterAdd scat16 (val_main_v43 (F := Ideal)) (val_main_v10 (F := Ideal) x5)
        (val_main_v42 (F := Ideal) x0 x1 x5) := rfl

/-- the first bias broadcast over the nodes -/
theorem v47_apply (i : Fin 200000) (f : Fin 16) : val_main_v47 (F := Ideal) x2 (ix2 i f) = x2 (ix1 f) := by
  have hi : idx_main_v46 (idx_main_v47 (ix2 i f)) = ix1 f :=
    funext fun a => Fin.ext (by match a with | ⟨0, _⟩ => rfl)
  rw [val_main_v47_apply, val_main_v46_apply, hi]

/-- the first layer before rectification: aggregate over the edges landing on i, plus the bias -/
theorem v48_apply (i : Fin 200000) (f : Fin 16) :
    val_main_v48 (F := Ideal) x0 x1 x2 x5 (ix2 i f) = Cert.Gcn.projAgg1 Aw Xn W1 B1 Gs Gd Lx i f := by
  have h43 : val_main_v43 (F := Ideal) (ix2 i f) = 0 := by
    rw [val_main_v43_apply, val_main_cst_8_apply]
    exact Ideal.ofBits_zero_f32
  have hsum : ∑ e ∈ Lx i, val_main_v42 (F := Ideal) x0 x1 x5 (ix2 e f)
      = ∑ e ∈ Lx i, (x0 (ix2 (Gs e) 0) * x1 (ix2 f 0)) * (Aw (Gs e) * Aw (Gd e)) :=
    Finset.sum_congr rfl (fun e _ => v42_apply x0 x1 x5 e f)
  rw [val_main_v48_apply, v47_apply, v45_def, scatter16_apply, h43, zero_add, hsum, projAgg1_def]
  rfl

/-- the rectified first layer -/
theorem v49_apply (i : Fin 200000) (f : Fin 16) :
    val_main_v49 (F := Ideal) x0 x1 x2 x5 (ix2 i f) = max (Cert.Gcn.projAgg1 Aw Xn W1 B1 Gs Gd Lx i f) 0 := by
  have hz : val_main_call1_v0 (F := Ideal) (ix2 i f) = 0 := by
    rw [val_main_call1_v0_apply, val_main_call1_cst_apply]
    exact Ideal.ofBits_zero_f32
  rw [val_main_v49_apply, v48_apply, hz]
  rfl

/-- the second dense weights, transposed -/
theorem v76_apply (k : Fin 16) : val_main_v76 (F := Ideal) x3 (ix2 k 0) = x3 (ix2 0 k) := by
  have hi : idx_main_v76 (ix2 k 0) = ix2 0 k :=
    funext fun a => Fin.ext (by match a with | ⟨0, _⟩ => rfl | ⟨1, _⟩ => rfl)
  rw [val_main_v76_apply, hi]

/-- the hidden projection at node n -/
theorem v77_apply (n : Fin 200000) :
    val_main_v77 (F := Ideal) x0 x1 x2 x3 x5 (ix2 n 0) = Cert.Gcn.projHidden Aw Xn W1 B1 W2 Gs Gd Lx n := by
  rw [val_main_v77_apply, projHidden_def]
  refine Finset.sum_congr rfl (fun k _ => ?_)
  have hl : lidx_main_v77 (ix2 n 0) k = ix2 n k :=
    funext fun a => Fin.ext (by match a with | ⟨0, _⟩ => rfl | ⟨1, _⟩ => rfl)
  have hr : ridx_main_v77 (ix2 n 0) k = ix2 k 0 :=
    funext fun a => Fin.ext (by match a with | ⟨0, _⟩ => rfl | ⟨1, _⟩ => rfl)
  rw [hl, hr, v49_apply, v76_apply]

/-- the second layer's feature gather reads the hidden projection along the normalised sources -/
theorem v84_def : val_main_v84 (F := Ideal) x0 x1 x2 x3 x5
    = Host.gather gathx1 (val_main_v77 (F := Ideal) x0 x1 x2 x3 x5) (val_main_v21 (F := Ideal) x5) := rfl

/-- the second layer's edge weight as a column -/
theorem v85_apply (e : Fin 5200000) : val_main_v85 (F := Ideal) x5 (ix2 e 0) = Aw (Gs e) * Aw (Gd e) := by
  have hi : idx_main_v85 (ix2 e 0) = ix1 e :=
    funext fun a => Fin.ext (by match a with | ⟨0, _⟩ => rfl)
  rw [val_main_v85_apply, hi, v75_eq, v30_apply]

/-- the hidden projection gathered along the sources, times the edge weight -/
theorem v86_apply (e : Fin 5200000) :
    val_main_v86 (F := Ideal) x0 x1 x2 x3 x5 (ix2 e 0)
      = Cert.Gcn.projHidden Aw Xn W1 B1 W2 Gs Gd Lx (Gs e) * (Aw (Gs e) * Aw (Gd e)) := by
  rw [val_main_v86_apply, v85_apply, v84_def, gatherx1_apply, v77_apply]
  rfl

/-- the second layer's aggregation is a scatter-add into zeros along the raw destinations -/
theorem v89_def : val_main_v89 (F := Ideal) x0 x1 x2 x3 x5
    = Ideal.hostScatterAdd scatx1 (val_main_v87 (F := Ideal)) (val_main_v10 (F := Ideal) x5)
        (val_main_v86 (F := Ideal) x0 x1 x2 x3 x5) := rfl

/-- the second bias broadcast over the nodes -/
theorem v91_apply (i : Fin 200000) : val_main_v91 (F := Ideal) x4 (ix2 i 0) = x4 (ix1 0) := by
  have hi : idx_main_v90 (idx_main_v91 (ix2 i 0)) = ix1 0 :=
    funext fun a => Fin.ext (by match a with | ⟨0, _⟩ => rfl)
  rw [val_main_v91_apply, val_main_v90_apply, hi]

/-- The reference's result at node i is the two-layer convolution, projection before aggregation. -/
theorem result_apply (i : Fin 200000) :
    val_main_v92 (F := Ideal) x0 x1 x2 x3 x4 x5 (ix2 i 0)
      = Cert.Gcn.projAggOut (Cert.Gcn.dinv ONE (σ (val_main_v10 (F := Ideal) x5)))
          (fun n => x0 (ix2 n 0)) (fun f => x1 (ix2 f 0)) (fun f => x2 (ix1 f)) (fun f => x3 (ix2 0 f)) (x4 (ix1 0))
          (γ (val_main_v21 (F := Ideal) x5)) (γ (val_main_v28 (F := Ideal) x5)) (σ (val_main_v10 (F := Ideal) x5)) i := by
  have h87 : val_main_v87 (F := Ideal) (ix2 i 0) = 0 := by
    rw [val_main_v87_apply, val_main_cst_19_apply]
    exact Ideal.ofBits_zero_f32
  have hsum : ∑ e ∈ Lx i, val_main_v86 (F := Ideal) x0 x1 x2 x3 x5 (ix2 e 0)
      = ∑ e ∈ Lx i, Cert.Gcn.projHidden Aw Xn W1 B1 W2 Gs Gd Lx (Gs e) * (Aw (Gs e) * Aw (Gd e)) :=
    Finset.sum_congr rfl (fun e _ => v86_apply x0 x1 x2 x3 x5 e)
  rw [val_main_v92_apply, v91_apply, v89_def, scatterx1_apply, h87, zero_add, hsum, projAggOut_def]
  rfl

end Layers

/-! ## An edge that lands on a node reads as that node -/

/-- a signed "less than 0" on a word that is not negative is the bit 0 -/
theorem cmpi_slt_zero (v : BitVec 32) (h : ¬ v.toInt < 0) : IntOp.cmpi .slt v 0#32 = 0#1 := by
  have hs : v.slt 0#32 = false := by
    rw [BitVec.slt_eq_decide, BitVec.toInt_zero]
    exact decide_eq_false h
  show BitVec.ofBool (v.slt 0#32) = 0#1
  rw [hs]
  rfl

section Lands
variable (x5 : (⟨S2x5000000, .i32⟩ : BufTy).Contents (Elt Ideal))

/-- the raw destination column at edge e is the destination list at e -/
theorem v10_at (e : Fin 5200000) :
    val_main_v10 (F := Ideal) x5 (ix2 e 0) = val_main_v7 (F := Ideal) x5 (ix1 e) := by
  have hi : idx_main_v10 (ix2 e 0) = ix1 e :=
    funext fun a => Fin.ext (by match a with | ⟨0, _⟩ => rfl)
  rw [val_main_v10_apply, hi]

/-- An edge that the aggregation lands on node i (its raw destination read signed is i) reads as node i when a node array is gathered along the normalised destinations. -/
theorem lands (i : Fin 200000) (e : Fin 5200000) (he : e ∈ σ (val_main_v10 (F := Ideal) x5) i) :
    γ (val_main_v28 (F := Ideal) x5) e = i := by
  have hv : (val_main_v7 (F := Ideal) x5 (ix1 e)).toInt = (i.val : Int) := by
    rw [← v10_at]
    exact (Finset.mem_filter.mp he).2
  obtain ⟨hneg, hmin⟩ := clamp_of_lands _ i.val i.isLt hv
  have h23 : val_main_v23 (F := Ideal) (ix1 e) = 0#32 := by
    rw [val_main_v23_apply, val_main_c_4_apply]
  have hi : idx_main_v28 (ix2 e 0) = ix1 e :=
    funext fun a => Fin.ext (by match a with | ⟨0, _⟩ => rfl)
  have h28 : val_main_v28 (F := Ideal) x5 (ix2 e 0) = val_main_v7 (F := Ideal) x5 (ix1 e) := by
    rw [val_main_v28_apply, hi, val_main_v27_apply, val_main_v24_apply, h23, cmpi_slt_zero _ hneg, select_zero]
  refine Fin.ext ?_
  show min (val_main_v28 (F := Ideal) x5 (ix2 e 0)).toInt.toNat 199999 = i.val
  rw [h28]
  exact hmin

end Lands

end Cert.ReferenceIdeal.RefValue
end
-- ==== Proof.Payload.lean ====
import proofs.«135276_j39908836114582_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
noncomputable section
namespace Cert.KernelIdeal.Payload
open Idealize.ShloMosaic Idealize.ShloMosaic.ValueIdx Cert.KernelIdeal Cert.KernelIdeal.Gen

/-- On its free axis the left operand's index is the output's row. -/
theorem lhs1_0 (j : S10000x16.Idx) (q : dot_S10000x1_S1x16_S10000x16_1_0_0_1_n_n.contr.Idx) : (dot_S10000x1_S1x16_S10000x16_1_0_0_1_n_n.lhsIdx j q 0).val = (j 0).val := by
  unfold DotDims.lhsIdx
  rw [dif_neg (show ¬(0 : Fin S10000x1.rank) ∈ dot_S10000x1_S1x16_S10000x16_1_0_0_1_n_n.lhsBatch by decide),
    dif_pos (show (0 : Fin S10000x1.rank) ∈ dot_S10000x1_S1x16_S10000x16_1_0_0_1_n_n.lhsNonContracting by decide)]
  rfl
/-- On its contracted axis the left operand's index is the contraction position. -/
theorem lhs1_1 (j : S10000x16.Idx) (q : dot_S10000x1_S1x16_S10000x16_1_0_0_1_n_n.contr.Idx) : (dot_S10000x1_S1x16_S10000x16_1_0_0_1_n_n.lhsIdx j q 1).val = (q ⟨0, by decide⟩).val :=
  dot_S10000x1_S1x16_S10000x16_1_0_0_1_n_n.lhsIdx_val_of_single rfl j q
/-- On its contracted axis the right operand's index is the contraction position. -/
theorem rhs1_0 (j : S10000x16.Idx) (q : dot_S10000x1_S1x16_S10000x16_1_0_0_1_n_n.contr.Idx) : (dot_S10000x1_S1x16_S10000x16_1_0_0_1_n_n.rhsIdx j q 0).val = (q ⟨0, by decide⟩).val :=
  dot_S10000x1_S1x16_S10000x16_1_0_0_1_n_n.rhsIdx_val_of_single rfl j q
/-- On its free axis the right operand's index is the output's column. -/
theorem rhs1_1 (j : S10000x16.Idx) (q : dot_S10000x1_S1x16_S10000x16_1_0_0_1_n_n.contr.Idx) : (dot_S10000x1_S1x16_S10000x16_1_0_0_1_n_n.rhsIdx j q 1).val = (j 1).val := by
  unfold DotDims.rhsIdx
  rw [dif_neg (show ¬(1 : Fin S1x16.rank) ∈ dot_S10000x1_S1x16_S10000x16_1_0_0_1_n_n.rhsBatch by decide),
    dif_pos (show (1 : Fin S1x16.rank) ∈ dot_S10000x1_S1x16_S10000x16_1_0_0_1_n_n.rhsNonContracting by decide)]
  rfl

/-- The first product at (p, f): its contracted axis has length one, so the sum is the single product
    of the left operand's row entry and the right operand's feature entry. -/
theorem mm1_apply (a : FVec Ideal S10000x1 .f32) (b : FVec Ideal S1x16 .f32) (p : Fin 10000) (f : Fin 16) :
    matmul dot_S10000x1_S1x16_S10000x16_1_0_0_1_n_n none a b (constant (F := Ideal) S10000x16 .f32 0x00000000#32) (ix2 p f)
      = a (ix2 p 0) * b (ix2 0 f) := by
  simp only [matmul]
  rw [Ideal.matmul_constant_zero_apply,
    ← Equiv.sum_comp (contrEquiv1 dot_S10000x1_S1x16_S10000x16_1_0_0_1_n_n 1 rfl rfl).symm, Fin.sum_univ_one]
  have hk := contrEquiv1_symm_val dot_S10000x1_S1x16_S10000x16_1_0_0_1_n_n 1 rfl rfl (0 : Fin 1)
  have el : dot_S10000x1_S1x16_S10000x16_1_0_0_1_n_n.lhsIdx (ix2 p f) ((contrEquiv1 dot_S10000x1_S1x16_S10000x16_1_0_0_1_n_n 1 rfl rfl).symm 0) = ix2 p (0 : Fin 1) :=
    funext fun ax => Fin.ext (by
      match ax with
      | ⟨0, _⟩ => exact lhs1_0 _ _
      | ⟨1, _⟩ => exact (lhs1_1 _ _).trans hk)
  have er : dot_S10000x1_S1x16_S10000x16_1_0_0_1_n_n.rhsIdx (ix2 p f) ((contrEquiv1 dot_S10000x1_S1x16_S10000x16_1_0_0_1_n_n 1 rfl rfl).symm 0) = ix2 (0 : Fin 1) f :=
    funext fun ax => Fin.ext (by
      match ax with
      | ⟨0, _⟩ => exact (rhs1_0 _ _).trans hk
      | ⟨1, _⟩ => exact rhs1_1 _ _)
  rw [el, er]

/-- On its free axis the left operand's index is the output's row. -/
theorem lhs2_0 (j : S10000x1.Idx) (q : dot_S10000x16_S16x1_S10000x1_1_0_0_1_n_n.contr.Idx) : (dot_S10000x16_S16x1_S10000x1_1_0_0_1_n_n.lhsIdx j q 0).val = (j 0).val := by
  unfold DotDims.lhsIdx
  rw [dif_neg (show ¬(0 : Fin S10000x16.rank) ∈ dot_S10000x16_S16x1_S10000x1_1_0_0_1_n_n.lhsBatch by decide),
    dif_pos (show (0 : Fin S10000x16.rank) ∈ dot_S10000x16_S16x1_S10000x1_1_0_0_1_n_n.lhsNonContracting by decide)]
  rfl
/-- On its contracted axis the left operand's index is the contraction position. -/
theorem lhs2_1 (j : S10000x1.Idx) (q : dot_S10000x16_S16x1_S10000x1_1_0_0_1_n_n.contr.Idx) : (dot_S10000x16_S16x1_S10000x1_1_0_0_1_n_n.lhsIdx j q 1).val = (q ⟨0, by decide⟩).val :=
  dot_S10000x16_S16x1_S10000x1_1_0_0_1_n_n.lhsIdx_val_of_single rfl j q
/-- On its contracted axis the right operand's index is the contraction position. -/
theorem rhs2_0 (j : S10000x1.Idx) (q : dot_S10000x16_S16x1_S10000x1_1_0_0_1_n_n.contr.Idx) : (dot_S10000x16_S16x1_S10000x1_1_0_0_1_n_n.rhsIdx j q 0).val = (q ⟨0, by decide⟩).val :=
  dot_S10000x16_S16x1_S10000x1_1_0_0_1_n_n.rhsIdx_val_of_single rfl j q
/-- On its free axis the right operand's index is the output's column. -/
theorem rhs2_1 (j : S10000x1.Idx) (q : dot_S10000x16_S16x1_S10000x1_1_0_0_1_n_n.contr.Idx) : (dot_S10000x16_S16x1_S10000x1_1_0_0_1_n_n.rhsIdx j q 1).val = (j 1).val := by
  unfold DotDims.rhsIdx
  rw [dif_neg (show ¬(1 : Fin S16x1.rank) ∈ dot_S10000x16_S16x1_S10000x1_1_0_0_1_n_n.rhsBatch by decide),
    dif_pos (show (1 : Fin S16x1.rank) ∈ dot_S10000x16_S16x1_S10000x1_1_0_0_1_n_n.rhsNonContracting by decide)]
  rfl

/-- The second product at (p, 0): the sum over the sixteen features of the left operand's entry in row p
    times the right operand's entry in that feature's row. -/
theorem mm2_apply (a : FVec Ideal S10000x16 .f32) (b : FVec Ideal S16x1 .f32) (p : Fin 10000) :
    matmul dot_S10000x16_S16x1_S10000x1_1_0_0_1_n_n none a b (constant (F := Ideal) S10000x1 .f32 0x00000000#32) (ix2 p (0 : Fin 1))
      = ∑ f : Fin 16, a (ix2 p f) * b (ix2 f (0 : Fin 1)) := by
  simp only [matmul]
  rw [Ideal.matmul_constant_zero_apply,
    ← Equiv.sum_comp (contrEquiv1 dot_S10000x16_S16x1_S10000x1_1_0_0_1_n_n 16 rfl rfl).symm]
  refine Finset.sum_congr rfl fun f _ => ?_
  have hk := contrEquiv1_symm_val dot_S10000x16_S16x1_S10000x1_1_0_0_1_n_n 16 rfl rfl f
  have el : dot_S10000x16_S16x1_S10000x1_1_0_0_1_n_n.lhsIdx (ix2 p (0 : Fin 1)) ((contrEquiv1 dot_S10000x16_S16x1_S10000x1_1_0_0_1_n_n 16 rfl rfl).symm f) = ix2 p f :=
    funext fun ax => Fin.ext (by
      match ax with
      | ⟨0, _⟩ => exact lhs2_0 _ _
      | ⟨1, _⟩ => exact (lhs2_1 _ _).trans hk)
  have er : dot_S10000x16_S16x1_S10000x1_1_0_0_1_n_n.rhsIdx (ix2 p (0 : Fin 1)) ((contrEquiv1 dot_S10000x16_S16x1_S10000x1_1_0_0_1_n_n 16 rfl rfl).symm f) = ix2 f (0 : Fin 1) :=
    funext fun ax => Fin.ext (by
      match ax with
      | ⟨0, _⟩ => exact (rhs2_0 _ _).trans hk
      | ⟨1, _⟩ => exact rhs2_1 _ _)
  rw [el, er]

/-- The body's stored block at row p: the scale d p times the sum over the 16 features f of relu((d p · g p) · W1ᵀ[0,f] + b[0,f]) · W2ᵀ[f,0]. -/
theorem pay_apply (v0 v2 : FVec Ideal S10000x1 .f32) (v5 v8 : FVec Ideal S1x16 .f32) (v14 : FVec Ideal S16x1 .f32) (p : Fin 10000) :
    Gen.k0_pay1 (F := Ideal) v0 v2 v5 v8 v14 (ix2 p 0)
      = v0 (ix2 p 0) * ∑ f : Fin 16, max ((v0 (ix2 p 0) * v2 (ix2 p 0)) * v5 (ix2 0 f) + v8 (ix2 0 f)) 0 * v14 (ix2 f 0) := by
  unfold Gen.k0_pay1
  simp only [shapeCast_self]
  rw [mulf_apply, mm2_apply]
  congr 1
  refine Finset.sum_congr rfl fun f _ => ?_
  rw [maximumf_apply, addf_apply, mm1_apply, mulf_apply, broadcastTo_1b_ab_apply, broadcast_apply]
  show max _ (Ideal.ofBits .f32 0x00000000#32) * _ = _
  rw [Ideal.ofBits_zero_f32]

end Cert.KernelIdeal.Payload
end
-- ==== Proof.KerBlocks.lean ====
/-
  The region's output array as one function of the five arrays it reads.

  The grid has 20 points; at point t the two column windows (the aggregate and the node weight) and the output
  window hold rows 10000·t … 10000·t + 9999 of their [200000, 1] arrays, and the three small windows (the two
  dense weight matrices and the bias row) hold their whole arrays.  The body is row-wise: row p of the stored block
  depends on row p of the two column blocks only.  So what point t writes back is block t of ONE function of the
  arrays, `nodeOut`; the 20 blocks tile the array, and after the region the array is `nodeOut`.
  Every per-point fact is stated over arbitrary arrays and instantiated at the region-entry contents last.
-/
import proofs.«135276_j39908836114582_2_alg».proof.Proof.Gen.KernelIdeal.Frame
import proofs.«135276_j39908836114582_2_alg».proof.Proof.Payload
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- Row i of the region's output: the node weight times the sum over the 16 hidden features of the rectified
    first-layer value (weight · aggregate · W1ᵀ + bias) times W2ᵀ. -/
def nodeOut (A0 A1 : S200000x1.Idx → EReal) (A2 A3 : S1x16.Idx → EReal) (A4 : S16x1.Idx → EReal) : S200000x1.Idx → EReal :=
  fun i => A1 i * ∑ f : Fin 16, max ((A1 i * A0 i) * A2 (ix2 0 f) + A3 (ix2 0 f)) 0 * A4 (ix2 f 0)

/-- The printed index maps over the grid: the column windows and the output move with the point along the rows,
    the small windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the first column window's block at point t is row 10000·t + p of the array read. -/
theorem read_col0 (t : Fin cfg0.N) (f : S200000x1.Idx → EReal) (p : Fin 10000) (k : Fin 200000) (hk : k.val = t.val * 10000 + p.val) :
    (((cfg0.win 0).blk t).view.read (Elt Ideal) f : Vec Ideal S10000x1 .f32) (ix2 p 0) = f (ix2 k 0) := by
  obtain ⟨e0, e1, -⟩ := idx_facts t
  show f (((cfg0.win 0).blk t).view.emb (ix2 p 0)) = f (ix2 k 0)
  refine congrArg f ?_
  funext a
  apply Fin.ext
  match a with
  | ⟨0, _⟩ => show win0_0.index t 0 * 10000 + 1 * p.val = k.val; rw [e0, hk]; omega
  | ⟨1, _⟩ => show win0_0.index t 1 * 1 + 1 * 0 = 0; rw [e1]

/-- The same for the second column window. -/
theorem read_col1 (t : Fin cfg0.N) (f : S200000x1.Idx → EReal) (p : Fin 10000) (k : Fin 200000) (hk : k.val = t.val * 10000 + p.val) :
    (((cfg0.win 1).blk t).view.read (Elt Ideal) f : Vec Ideal S10000x1 .f32) (ix2 p 0) = f (ix2 k 0) := by
  obtain ⟨-, -, e0, e1, -⟩ := idx_facts t
  show f (((cfg0.win 1).blk t).view.emb (ix2 p 0)) = f (ix2 k 0)
  refine congrArg f ?_
  funext a
  apply Fin.ext
  match a with
  | ⟨0, _⟩ => show win0_1.index t 0 * 10000 + 1 * p.val = k.val; rw [e0, hk]; omega
  | ⟨1, _⟩ => show win0_1.index t 1 * 1 + 1 * 0 = 0; rw [e1]

/-- Row p of the output window's block at point t is row 10000·t + p of the array. -/
theorem emb_out (t : Fin cfg0.N) (p : Fin 10000) (k : Fin 200000) (hk : k.val = t.val * 10000 + p.val) :
    ((cfg0.win 5).blk t).view.emb (ix2 p 0) = (ix2 k 0 : S200000x1.Idx) := by
  obtain ⟨-, -, -, -, -, -, -, -, -, -, e0, e1⟩ := idx_facts t
  funext a
  apply Fin.ext
  match a with
  | ⟨0, _⟩ => show win0_5.index t 0 * 10000 + 1 * p.val = k.val; rw [e0, hk]; omega
  | ⟨1, _⟩ => show win0_5.index t 1 * 1 + 1 * 0 = 0; rw [e1]

/-- A small window's block is the whole array it reads, at every point. -/
theorem read_w2 (t : Fin cfg0.N) (f : S1x16.Idx → EReal) :
    (((cfg0.win 2).blk t).view.read (Elt Ideal) f : Vec Ideal S1x16 .f32) = f := by
  obtain ⟨-, -, -, -, e0, e1, -⟩ := idx_facts t
  funext j
  show f (((cfg0.win 2).blk t).view.emb j) = f j
  refine congrArg f ?_
  funext a
  apply Fin.ext
  match a with
  | ⟨0, _⟩ => show win0_2.index t 0 * 1 + 1 * (j 0).val = (j 0).val; rw [e0]; omega
  | ⟨1, _⟩ => show win0_2.index t 1 * 16 + 1 * (j 1).val = (j 1).val; rw [e1]; omega

theorem read_w3 (t : Fin cfg0.N) (f : S1x16.Idx → EReal) :
    (((cfg0.win 3).blk t).view.read (Elt Ideal) f : Vec Ideal S1x16 .f32) = f := by
  obtain ⟨-, -, -, -, -, -, e0, e1, -⟩ := idx_facts t
  funext j
  show f (((cfg0.win 3).blk t).view.emb j) = f j
  refine congrArg f ?_
  funext a
  apply Fin.ext
  match a with
  | ⟨0, _⟩ => show win0_3.index t 0 * 1 + 1 * (j 0).val = (j 0).val; rw [e0]; omega
  | ⟨1, _⟩ => show win0_3.index t 1 * 16 + 1 * (j 1).val = (j 1).val; rw [e1]; omega

theorem read_w4 (t : Fin cfg0.N) (f : S16x1.Idx → EReal) :
    (((cfg0.win 4).blk t).view.read (Elt Ideal) f : Vec Ideal S16x1 .f32) = f := by
  obtain ⟨-, -, -, -, -, -, -, -, e0, e1, -⟩ := idx_facts t
  funext j
  show f (((cfg0.win 4).blk t).view.emb j) = f j
  refine congrArg f ?_
  funext a
  apply Fin.ext
  match a with
  | ⟨0, _⟩ => show win0_4.index t 0 * 16 + 1 * (j 0).val = (j 0).val; rw [e0]; omega
  | ⟨1, _⟩ => show win0_4.index t 1 * 1 + 1 * (j 1).val = (j 1).val; rw [e1]; omega

/-- The body at point t, run on the blocks of ANY five arrays, leaves block t of `nodeOut` of those arrays. -/
theorem point_eq (t : Fin cfg0.N) (A0 A1 : S200000x1.Idx → EReal) (A2 A3 : S1x16.Idx → EReal) (A4 : S16x1.Idx → EReal) :
    (cfg0.win 5).cut (grid0.coords t)
        (out0_5 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4))
      = ((cfg0.win 5).blk t).view.read (Elt Ideal) (nodeOut A0 A1 A2 A3 A4) := by
  unfold out0_5
  rw [View.canon_unit_zero hz]
  simp only [View.ld_unit_zero (S := S10000x1) hz, View.ld_unit_zero (S := S1x16) hz, View.ld_unit_zero (S := S16x1) hz]
  funext j
  obtain ⟨p, q, rfl⟩ : ∃ (p : Fin 10000) (q : Fin 1), j = ix2 p q := ⟨j 0, j 1, eq_ix2 j⟩
  obtain rfl : q = 0 := Subsingleton.elim _ _
  have hN : cfg0.N = 20 := N_0
  have hk : t.val * 10000 + p.val < 200000 := by have := t.isLt; have := p.isLt; omega
  show k0_pay1 (((cfg0.win 1).blk t).view.read (Elt Ideal) A1) (((cfg0.win 0).blk t).view.read (Elt Ideal) A0)
        (((cfg0.win 2).blk t).view.read (Elt Ideal) A2) (((cfg0.win 3).blk t).view.read (Elt Ideal) A3)
        (((cfg0.win 4).blk t).view.read (Elt Ideal) A4) (ix2 p 0)
      = nodeOut A0 A1 A2 A3 A4 (((cfg0.win 5).blk t).view.emb (ix2 p 0))
  rw [emb_out t p ⟨_, hk⟩ rfl]
  refine (Cert.KernelIdeal.Payload.pay_apply (((cfg0.win 1).blk t).view.read (Elt Ideal) A1) (((cfg0.win 0).blk t).view.read (Elt Ideal) A0)
        (((cfg0.win 2).blk t).view.read (Elt Ideal) A2) (((cfg0.win 3).blk t).view.read (Elt Ideal) A3)
        (((cfg0.win 4).blk t).view.read (Elt Ideal) A4) p).trans ?_
  rw [read_col1 t A1 p ⟨_, hk⟩ rfl, read_col0 t A0 p ⟨_, hk⟩ rfl, read_w2 t A2, read_w3 t A3, read_w4 t A4]
  rfl

/-- What point t writes back is block t of `nodeOut` of the arrays as the region finds them. -/
theorem flushed_eq (c : Dev nD) (t : Fin cfg0.N) :
    (dats m 0 c).flushed 5 t = ((cfg0.win 5).blk t).view.read (Elt Ideal)
      (nodeOut (V m c main_v27) (V m c main_v15) (V m c main_v28) (V m c main_v29) (V m c main_v30)) := by
  show (cfg0.win 5).cut (grid0.coords t) ((dats m 0 c).after 5 t) = _
  rw [after0_5]
  exact point_eq t (V m c main_v27) (V m c main_v15) (V m c main_v28) (V m c main_v29) (V m c main_v30)

/-- An index of the output array is in point t's block iff each coordinate is in the block's range on its axis. -/
theorem mem_blk (t : Fin cfg0.N) (i : S200000x1.Idx) :
    i ∈ ((cfg0.win 5).blk t).view.set ↔ ∀ a : Fin 2, win0_5.index t a * S10000x1.size a ≤ (i a).val ∧ (i a).val < win0_5.index t a * S10000x1.size a + S10000x1.size a := by
  show i ∈ ((View.whole main_v31).slice (win0_5.rect t)).set ↔ _
  rw [View.set_slice_whole, Rect.mem_set_unit]
  exact Iff.rfl

/-- Every row of the output array is in some point's block: row r in block r / 10000. -/
theorem cover (i : S200000x1.Idx) : ∃ t : Fin cfg0.N, (cfg0.win 5).flush t = true ∧ i ∈ ((cfg0.win 5).blk t).view.set := by
  have hN : cfg0.N = 20 := N_0
  have hi0 : (i 0).val < 200000 := (i 0).isLt
  have hi1 : (i 1).val < 1 := (i 1).isLt
  have ht : (i 0).val / 10000 < cfg0.N := by rw [hN]; omega
  obtain ⟨-, -, -, -, -, -, -, -, -, -, e10, e11⟩ := idx_facts ⟨(i 0).val / 10000, ht⟩
  refine ⟨⟨(i 0).val / 10000, ht⟩, flush0_5 _, ?_⟩
  rw [mem_blk]
  intro a
  match a with
  | ⟨0, _⟩ =>
    show win0_5.index ⟨(i 0).val / 10000, ht⟩ 0 * 10000 ≤ (i 0).val ∧ (i 0).val < win0_5.index ⟨(i 0).val / 10000, ht⟩ 0 * 10000 + 10000
    rw [e10]
    show (i 0).val / 10000 * 10000 ≤ (i 0).val ∧ (i 0).val < (i 0).val / 10000 * 10000 + 10000
    omega
  | ⟨1, _⟩ =>
    show win0_5.index ⟨(i 0).val / 10000, ht⟩ 1 * 1 ≤ (i 1).val ∧ (i 1).val < win0_5.index ⟨(i 0).val / 10000, ht⟩ 1 * 1 + 1
    rw [e11]
    omega

/-- The 20 blocks tile the output array, so after the region it is `nodeOut` of the arrays the region found. -/
theorem final (c : Dev nD) : (dats m 0 c).arrAt 5 cfg0.N
    = nodeOut (V m c main_v27) (V m c main_v15) (V m c main_v28) (V m c main_v29) (V m c main_v30) :=
  (dats m 0 c).arrAt_eq_of_cover 5 _ (fun t _ => flushed_eq m c t) cover

end Cert.KernelIdeal.Blocks

end
-- ==== Proof.KerHost.lean ====
/-
  The host lines around the region, read back.

  Before the region the program computes, from the edge list, the source and destination lists with self loops, the
  node weight (the inverse square root of the degree) as a column, the first aggregate (the weighted first input
  column gathered along the sources and summed onto the destinations), and re-laid copies of the dense weights and of
  the bias.  The edge lists and the weight are computed by the very operations the reference program uses, so they are
  stated here through the reference's stage functions.  The lines come in three stretches (the second is the inlined
  select of the weight); each stretch is read over the contents the previous one left, taken as a variable, so that
  no equation compares more than one stretch's operations at a time.  After the region the program gathers the
  region's output along the sources, sums onto the destinations, scales by the node weight and adds the last bias:
  `tailFn`.
-/
import proofs.«135276_j39908836114582_2_alg».proof.Proof.Gen.KernelIdeal.Frame
import proofs.«135276_j39908836114582_2_alg».proof.Proof.RefRead
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo Cert.ReferenceIdeal.ReadP

variable (m : (ℓ : Loc nD τ sig) → Buf (Elt Ideal) ℓ)

/-- Running two stretches of host lines one after the other is running their concatenation. -/
theorem after_append (l1 l2 : List (HloOp τ sig (Elt Ideal))) (W : Valuation τ sig (Elt Ideal)) :
    StableHlo.after (l1 ++ l2) W = StableHlo.after l2 (StableHlo.after l1 W) := by
  induction l1 generalizing W with
  | nil => rfl
  | cons op l ih => rw [List.cons_append, StableHlo.after_cons, StableHlo.after_cons, ih]

/-- The contents after the first stretch of host lines. -/
def W1 (c : Dev nD) : Valuation τ sig (Elt Ideal) := StableHlo.after hostOps0 (fun b => m (c, b))
/-- The contents after the second stretch (the select of the node weight). -/
def W2 (c : Dev nD) : Valuation τ sig (Elt Ideal) := StableHlo.after hostOps0_1 (W1 m c)

/-- The region-entry contents are the third stretch run over the second's. -/
theorem V0_eq (c : Dev nD) : V0 m c = StableHlo.after hostOps0_2 (W2 m c) := by
  show StableHlo.after (List.flatten [hostOps0, hostOps0_1, hostOps0_2]) (fun b => m (c, b)) = _
  rw [List.flatten_cons, List.flatten_cons, List.flatten_cons, List.flatten_nil, List.append_nil, after_append, after_append]
  rfl

/-! ## The first stretch, over the launch memory -/

theorem W1_src (c : Dev nD) : W1 m c (Proc.devRef .tc main_v5) = val_main_v6 (F := Ideal) (m ((c : Thread nD τ).loc main_arg5)) := by
  unfold W1; after_results_simp <;> rfl
theorem W1_dst (c : Dev nD) : W1 m c (Proc.devRef .tc main_v6) = val_main_v7 (F := Ideal) (m ((c : Thread nD τ).loc main_arg5)) := by
  unfold W1; after_results_simp <;> rfl
theorem W1_pos (c : Dev nD) : W1 m c (Proc.devRef .tc main_v12) = val_main_v13 (F := Ideal) (m ((c : Thread nD τ).loc main_arg5)) := by
  unfold W1; after_results_simp <;> rfl
theorem W1_rsqrt (c : Dev nD) : W1 m c (Proc.devRef .tc main_v13) = val_main_v14 (F := Ideal) (m ((c : Thread nD τ).loc main_arg5)) := by
  unfold W1; after_results_simp <;> rfl
theorem W1_zero (c : Dev nD) : W1 m c (Proc.devRef .tc main_cst_2) = val_main_cst_2 (F := Ideal) := by
  unfold W1; after_results_simp <;> rfl
theorem W1_arg0 (c : Dev nD) : W1 m c (Proc.devRef .tc main_arg0) = m ((c : Thread nD τ).loc main_arg0) := by
  unfold W1; after_results_simp <;> rfl
theorem W1_arg1 (c : Dev nD) : W1 m c (Proc.devRef .tc main_arg1) = m ((c : Thread nD τ).loc main_arg1) := by
  unfold W1; after_results_simp <;> rfl
theorem W1_arg2 (c : Dev nD) : W1 m c (Proc.devRef .tc main_arg2) = m ((c : Thread nD τ).loc main_arg2) := by
  unfold W1; after_results_simp <;> rfl
theorem W1_arg3 (c : Dev nD) : W1 m c (Proc.devRef .tc main_arg3) = m ((c : Thread nD τ).loc main_arg3) := by
  unfold W1; after_results_simp <;> rfl

/-! ## The second stretch, over any contents -/

/-- The select of the node weight over any contents: where the degree is positive its reciprocal square root, else the zero. -/
theorem sel_eq (W : Valuation τ sig (Elt Ideal)) :
    StableHlo.after hostOps0_1 W (Proc.devRef .tc main_v14)
      = select (W (Proc.devRef .tc main_v12)) (W (Proc.devRef .tc main_v13)) (broadcastInDim S200000 ![] bcast_S_S200000 (id (W (Proc.devRef .tc main_cst_2)))) := by
  after_results_simp <;> rfl
theorem keep_src (W : Valuation τ sig (Elt Ideal)) : StableHlo.after hostOps0_1 W (Proc.devRef .tc main_v5) = W (Proc.devRef .tc main_v5) := by
  after_results_simp
theorem keep_dst (W : Valuation τ sig (Elt Ideal)) : StableHlo.after hostOps0_1 W (Proc.devRef .tc main_v6) = W (Proc.devRef .tc main_v6) := by
  after_results_simp
theorem keep_arg0 (W : Valuation τ sig (Elt Ideal)) : StableHlo.after hostOps0_1 W (Proc.devRef .tc main_arg0) = W (Proc.devRef .tc main_arg0) := by
  after_results_simp
theorem keep_arg1 (W : Valuation τ sig (Elt Ideal)) : StableHlo.after hostOps0_1 W (Proc.devRef .tc main_arg1) = W (Proc.devRef .tc main_arg1) := by
  after_results_simp
theorem keep_arg2 (W : Valuation τ sig (Elt Ideal)) : StableHlo.after hostOps0_1 W (Proc.devRef .tc main_arg2) = W (Proc.devRef .tc main_arg2) := by
  after_results_simp
theorem keep_arg3 (W : Valuation τ sig (Elt Ideal)) : StableHlo.after hostOps0_1 W (Proc.devRef .tc main_arg3) = W (Proc.devRef .tc main_arg3) := by
  after_results_simp

/-- After the second stretch the node weight is the reference's weight stage. -/
theorem W2_dinv (c : Dev nD) : W2 m c (Proc.devRef .tc main_v14) = val_main_v15 (F := Ideal) (m ((c : Thread nD τ).loc main_arg5)) := by
  unfold W2
  rw [sel_eq, W1_pos, W1_rsqrt, W1_zero]
  rfl
theorem W2_src (c : Dev nD) : W2 m c (Proc.devRef .tc main_v5) = val_main_v6 (F := Ideal) (m ((c : Thread nD τ).loc main_arg5)) := by
  unfold W2; rw [keep_src, W1_src]
theorem W2_dst (c : Dev nD) : W2 m c (Proc.devRef .tc main_v6) = val_main_v7 (F := Ideal) (m ((c : Thread nD τ).loc main_arg5)) := by
  unfold W2; rw [keep_dst, W1_dst]
theorem W2_arg0 (c : Dev nD) : W2 m c (Proc.devRef .tc main_arg0) = m ((c : Thread nD τ).loc main_arg0) := by
  unfold W2; rw [keep_arg0, W1_arg0]
theorem W2_arg1 (c : Dev nD) : W2 m c (Proc.devRef .tc main_arg1) = m ((c : Thread nD τ).loc main_arg1) := by
  unfold W2; rw [keep_arg1, W1_arg1]
theorem W2_arg2 (c : Dev nD) : W2 m c (Proc.devRef .tc main_arg2) = m ((c : Thread nD τ).loc main_arg2) := by
  unfold W2; rw [keep_arg2, W1_arg2]
theorem W2_arg3 (c : Dev nD) : W2 m c (Proc.devRef .tc main_arg3) = m ((c : Thread nD τ).loc main_arg3) := by
  unfold W2; rw [keep_arg3, W1_arg3]

/-! ## The third stretch, over any contents -/

theorem third_src (W : Valuation τ sig (Elt Ideal)) : StableHlo.after hostOps0_2 W (Proc.devRef .tc main_v5) = W (Proc.devRef .tc main_v5) := by
  after_results_simp
theorem third_dst (W : Valuation τ sig (Elt Ideal)) : StableHlo.after hostOps0_2 W (Proc.devRef .tc main_v6) = W (Proc.devRef .tc main_v6) := by
  after_results_simp
theorem third_dinv (W : Valuation τ sig (Elt Ideal)) :
    StableHlo.after hostOps0_2 W (Proc.devRef .tc main_v15) = shapeCast _ (W (Proc.devRef .tc main_v14)) shapeCasts_S200000_S200000x1 := by
  after_results_simp <;> rfl
theorem third_w1 (W : Valuation τ sig (Elt Ideal)) :
    StableHlo.after hostOps0_2 W (Proc.devRef .tc main_v28) = transpose S1x16 [1, 0] (W (Proc.devRef .tc main_arg1)) transposes_S16x1_S1x16_1_0 := by
  after_results_simp <;> rfl
theorem third_b1 (W : Valuation τ sig (Elt Ideal)) :
    StableHlo.after hostOps0_2 W (Proc.devRef .tc main_v29) = shapeCast _ (W (Proc.devRef .tc main_arg2)) shapeCasts_S16_S1x16 := by
  after_results_simp <;> rfl
theorem third_w2 (W : Valuation τ sig (Elt Ideal)) :
    StableHlo.after hostOps0_2 W (Proc.devRef .tc main_v30) = transpose S16x1 [1, 0] (W (Proc.devRef .tc main_arg3)) transposes_S1x16_S16x1_1_0 := by
  after_results_simp <;> rfl
/-- The first aggregate over any contents. -/
theorem third_agg (W : Valuation τ sig (Elt Ideal)) :
    StableHlo.after hostOps0_2 W (Proc.devRef .tc main_v27)
      = Host.scatterAdd (F := Ideal) scatter_S200000x1_S5200000x1_S5200000x1_1_0_0_1
          (broadcastInDim S200000x1 ![] bcast_S_S200000x1 (constant (F := Ideal) S_ .f32 0x00000000#32))
          (broadcastInDim S5200000x1 ![0] bcast_S5200000_S5200000x1_0 (W (Proc.devRef .tc main_v6)))
          (Host.gather gather_S200000x1_S5200000x1_S5200000x1_1_0_n_n_0_1_11
            (mulf (shapeCast _ (W (Proc.devRef .tc main_v14)) shapeCasts_S200000_S200000x1)
              (extractStridedSlice S200000x1 ![0, 0] (W (Proc.devRef .tc main_arg0)) slices_S200000x4_S200000x1_0_0))
            (broadcastInDim S5200000x1 ![0] bcast_S5200000_S5200000x1_0
              (select (cmpi .slt (W (Proc.devRef .tc main_v5)) (broadcastInDim S5200000 ![] bcast_S_S5200000 (constantI S_ 32 0#32)))
                (addi (W (Proc.devRef .tc main_v5)) (broadcastInDim S5200000 ![] bcast_S_S5200000 (constantI S_ 32 200000#32)))
                (W (Proc.devRef .tc main_v5))))) := by
  after_results_simp <;> rfl

/-! ## The arrays as the region finds them -/

/-- The source list with self loops: the reference's. -/
theorem V_src (c : Dev nD) : V m c main_v5 = val_main_v6 (F := Ideal) (m ((c : Thread nD τ).loc main_arg5)) := by
  show V0 m c (Proc.devRef .tc main_v5) = _
  rw [V0_eq, third_src, W2_src]
/-- The destination list with self loops: the reference's. -/
theorem V_dst (c : Dev nD) : V m c main_v6 = val_main_v7 (F := Ideal) (m ((c : Thread nD τ).loc main_arg5)) := by
  show V0 m c (Proc.devRef .tc main_v6) = _
  rw [V0_eq, third_dst, W2_dst]
/-- The node weight as a column: the reference's weight stage, re-laid [200000] → [200000, 1]. -/
theorem V_dinv (c : Dev nD) : V m c main_v15
    = shapeCast _ (val_main_v15 (F := Ideal) (m ((c : Thread nD τ).loc main_arg5))) shapeCasts_S200000_S200000x1 := by
  show V0 m c (Proc.devRef .tc main_v15) = _
  rw [V0_eq, third_dinv, W2_dinv]
/-- The first dense weight transposed: the reference's. -/
theorem V_w1 (c : Dev nD) : V m c main_v28 = val_main_v31 (F := Ideal) (m ((c : Thread nD τ).loc main_arg1)) := by
  show V0 m c (Proc.devRef .tc main_v28) = _
  rw [V0_eq, third_w1, W2_arg1]
  rfl
/-- The first bias as a row. -/
theorem V_b1 (c : Dev nD) : V m c main_v29 = shapeCast _ (m ((c : Thread nD τ).loc main_arg2)) shapeCasts_S16_S1x16 := by
  show V0 m c (Proc.devRef .tc main_v29) = _
  rw [V0_eq, third_b1, W2_arg2]
/-- The second dense weight transposed: the reference's. -/
theorem V_w2 (c : Dev nD) : V m c main_v30 = val_main_v76 (F := Ideal) (m ((c : Thread nD τ).loc main_arg3)) := by
  show V0 m c (Proc.devRef .tc main_v30) = _
  rw [V0_eq, third_w2, W2_arg3]
  rfl
/-- The first aggregate: the weighted first input column gathered along the normalised sources and summed onto the
    destinations, from a zero array. -/
theorem V_agg (c : Dev nD) : V m c main_v27
    = Host.scatterAdd (F := Ideal) scatter_S200000x1_S5200000x1_S5200000x1_1_0_0_1
        (broadcastInDim S200000x1 ![] bcast_S_S200000x1 (constant (F := Ideal) S_ .f32 0x00000000#32))
        (val_main_v10 (F := Ideal) (m ((c : Thread nD τ).loc main_arg5)))
        (Host.gather gather_S200000x1_S5200000x1_S5200000x1_1_0_n_n_0_1_11
          (mulf (shapeCast _ (val_main_v15 (F := Ideal) (m ((c : Thread nD τ).loc main_arg5))) shapeCasts_S200000_S200000x1)
            (val_main_v4 (F := Ideal) (m ((c : Thread nD τ).loc main_arg0))))
          (val_main_v21 (F := Ideal) (m ((c : Thread nD τ).loc main_arg5)))) := by
  show V0 m c (Proc.devRef .tc main_v27) = _
  rw [V0_eq, third_agg, W2_dst, W2_dinv, W2_arg0, W2_src]
  rfl

/-- The lines after the region as one function of the node-weight column, the region's output, the two edge lists and
    the last bias: gather along the normalised sources, sum onto the destinations, scale, add the bias. -/
def tailFn (dcol zn : FVec Ideal S200000x1 .f32) (s d : IVec S5200000 32) (b2 : FVec Ideal S1 .f32) : FVec Ideal S200000x1 .f32 :=
  addf (mulf dcol
      (Host.scatterAdd (F := Ideal) scatter_S200000x1_S5200000x1_S5200000x1_1_0_0_1
        (broadcastInDim S200000x1 ![] bcast_S_S200000x1 (constant (F := Ideal) S_ .f32 0x00000000#32))
        (broadcastInDim S5200000x1 ![0] bcast_S5200000_S5200000x1_0 d)
        (Host.gather gather_S200000x1_S5200000x1_S5200000x1_1_0_n_n_0_1_11 zn
          (broadcastInDim S5200000x1 ![0] bcast_S5200000_S5200000x1_0
            (select (cmpi .slt s (broadcastInDim S5200000 ![] bcast_S_S5200000 (constantI S_ 32 0#32)))
              (addi s (broadcastInDim S5200000 ![] bcast_S_S5200000 (constantI S_ 32 200000#32))) s)))))
    (broadcastInDim S200000x1 ![0, 1] bcast_S1x1_S200000x1_0_1 (shapeCast _ b2 shapeCasts_S1_S1x1))

/-- The lines after the region over any contents are `tailFn` of what they read. -/
theorem tail_eq (W : Valuation τ sig (Elt Ideal)) :
    StableHlo.after hostOps1 W (Proc.devRef .tc main_v45)
      = tailFn (W (Proc.devRef .tc main_v15)) (W (Proc.devRef .tc main_v31)) (W (Proc.devRef .tc main_v5)) (W (Proc.devRef .tc main_v6)) (W (Proc.devRef .tc main_arg4)) := by
  after_results_simp <;> rfl

end Cert.KernelIdeal.HostSide

end
-- ==== Proof.KerValue.lean ====
/-
  The kernel program's result, read at a node: the two-layer convolution with the aggregations on the narrow side.

  The result buffer is what the lines after the region make of the region's output array: gathered along the sources,
  summed onto the destinations, scaled by the node weight, plus the last bias.  The region's output at a node is the
  node stage (scale, project, bias, rectify, project, scale) of the first aggregate and the node weight there; the
  first aggregate is the weighted input column gathered along the sources and summed onto the destinations.  Each of
  these is read here at an index and the whole is the aggregation-first arrangement `Gcn.aggProjOut`.
-/
import proofs.«135276_j39908836114582_2_alg».proof.Proof.KerBlocks
import proofs.«135276_j39908836114582_2_alg».proof.Proof.KerHost
import proofs.«135276_j39908836114582_2_alg».proof.Proof.IndexLib
import proofs.«135276_j39908836114582_2_alg».proof.Proof.Gcn

set_option maxRecDepth 16384

noncomputable section

namespace Cert.KernelIdeal.Value

open Cert.KernelIdeal Cert.KernelIdeal.Gen Idealize.ShloMosaic Idealize.ShloMosaic.TcCoe Idealize.SL.Sem
open Idealize.ShloMosaic.ValueIdx Cert.IndexLib Cert.ReferenceIdeal.ReadP
open Cert.KernelIdeal.Blocks Cert.KernelIdeal.HostSide

variable (m : (ℓ : Loc nD τ sig) → Buf (Elt Ideal) ℓ)

/-! ## Layout operations read at an index -/

/-- A flat array re-laid as a column reads the flat array's entry. -/
theorem col_apply (y : S200000.Idx → EReal) (n : Fin 200000) :
    shapeCast S200000x1 y shapeCasts_S200000_S200000x1 (ix2 n 0) = y (ix1 n) :=
  shapeCast_apply y shapeCasts_S200000_S200000x1 (ix2 n 0) (ix1 n) (by
    rw [Shape.rowMajor_val_one, Shape.rowMajor_val_two]; show n.val = n.val * 1 + 0; omega)

/-- A flat array re-laid as a row reads the flat array's entry. -/
theorem row_apply (y : S16.Idx → EReal) (f : Fin 16) :
    shapeCast S1x16 y shapeCasts_S16_S1x16 (ix2 0 f) = y (ix1 f) :=
  shapeCast_apply y shapeCasts_S16_S1x16 (ix2 0 f) (ix1 f) (by
    rw [Shape.rowMajor_val_one, Shape.rowMajor_val_two]; show f.val = 0 * 16 + f.val; omega)

/-- The zero column the aggregations start from. -/
def zeroCol : FVec Ideal S200000x1 .f32 :=
  broadcastInDim S200000x1 ![] bcast_S_S200000x1 (constant (F := Ideal) S_ .f32 0x00000000#32)

theorem zeroCol_apply (j : S200000x1.Idx) : zeroCol j = 0 :=
  (broadcastInDim_apply _ bcast_S_S200000x1 _ j (fun a => a.elim0) (fun a => a.elim0)).trans Ideal.ofBits_zero_f32

/-- The last bias re-laid [1] → [1, 1] and broadcast over the nodes reads its one entry. -/
theorem bias_apply (b2 : S1.Idx → EReal) (i : Fin 200000) :
    broadcastInDim S200000x1 ![0, 1] bcast_S1x1_S200000x1_0_1 (shapeCast S1x1 b2 shapeCasts_S1_S1x1) (ix2 i 0) = b2 (ix1 0) :=
  (broadcastInDim_apply _ bcast_S1x1_S200000x1_0_1 _ (ix2 i 0) (ix2 0 0) (fun a => match a with
      | ⟨0, _⟩ => by show 0 = if (1 : Nat) = 1 then 0 else _; rw [if_pos rfl]
      | ⟨1, _⟩ => by show 0 = if (1 : Nat) = 1 then 0 else _; rw [if_pos rfl])).trans
    (shapeCast_apply b2 shapeCasts_S1_S1x1 (ix2 0 0) (ix1 0) (by
      rw [Shape.rowMajor_val_one, Shape.rowMajor_val_two]; rfl))

/-! ## The lines after the region, at a node -/

/-- The raw destinations as a column of start indices. -/
def rawCol (d : IVec S5200000 32) : IVec S5200000x1 32 := broadcastInDim S5200000x1 ![0] bcast_S5200000_S5200000x1_0 d
/-- The sources, negative indices wrapped, as a column of start indices. -/
def normCol (s : IVec S5200000 32) : IVec S5200000x1 32 :=
  broadcastInDim S5200000x1 ![0] bcast_S5200000_S5200000x1_0
    (select (cmpi .slt s (broadcastInDim S5200000 ![] bcast_S_S5200000 (constantI S_ 32 0#32)))
      (addi s (broadcastInDim S5200000 ![] bcast_S_S5200000 (constantI S_ 32 200000#32))) s)

theorem tailFn_def (dcol zn : FVec Ideal S200000x1 .f32) (s d : IVec S5200000 32) (b2 : FVec Ideal S1 .f32) :
    tailFn dcol zn s d b2
      = addf (mulf dcol (Ideal.hostScatterAdd scatx1 zeroCol (rawCol d) (Host.gather gathx1 zn (normCol s))))
          (broadcastInDim S200000x1 ![0, 1] bcast_S1x1_S200000x1_0_1 (shapeCast S1x1 b2 shapeCasts_S1_S1x1)) := rfl

/-- The tail at node i: the node weight times the sum, over the edges landing on i, of the region's output at their
    sources, plus the bias. -/
theorem tailFn_apply (dcol zn : FVec Ideal S200000x1 .f32) (s d : IVec S5200000 32) (b2 : FVec Ideal S1 .f32) (i : Fin 200000) :
    tailFn dcol zn s d b2 (ix2 i 0)
      = dcol (ix2 i 0) * (∑ e ∈ σ (rawCol d) i, zn (ix2 (γ (normCol s) e) 0)) + b2 (ix1 0) := by
  rw [tailFn_def, addf_apply, mulf_apply, scatterx1_apply, zeroCol_apply, zero_add, bias_apply]
  refine congrArg (fun t => dcol (ix2 i 0) * t + b2 (ix1 0)) (Finset.sum_congr rfl (fun e _ => ?_))
  rw [gatherx1_apply]

theorem tailFn_congr {a1 b1 a2 b2 : FVec Ideal S200000x1 .f32} {a3 b3 a4 b4 : IVec S5200000 32} {a5 b5 : FVec Ideal S1 .f32}
    (h1 : a1 = b1) (h2 : a2 = b2) (h3 : a3 = b3) (h4 : a4 = b4) (h5 : a5 = b5) :
    tailFn a1 a2 a3 a4 a5 = tailFn b1 b2 b3 b4 b5 := by rw [h1, h2, h3, h4, h5]

/-- The result buffer is the tail of the node-weight column, the region's output, the edge lists and the last bias. -/
theorem result_eq (c : Dev nD) :
    Pipeline.afterTail₀ cfgs (dats m) 0 (V0 m) [hostOps1] c main_v45
      = tailFn (V m c main_v15) (nodeOut (V m c main_v27) (V m c main_v15) (V m c main_v28) (V m c main_v29) (V m c main_v30))
          (val_main_v6 (F := Ideal) (m ((c : Thread nD τ).loc main_arg5))) (val_main_v7 (F := Ideal) (m ((c : Thread nD τ).loc main_arg5))) (m ((c : Thread nD τ).loc main_arg4)) := by
  unfold Pipeline.afterTail₀
  refine (tail_eq _).trans ?_
  exact tailFn_congr
    ((Pipeline.withArrays_arr spec0 launch0.win.arr_inj c _ _ 1).trans (((dats m 0 c).arrAt_in 1 rfl _).trans (A_eq m c 1)))
    ((Pipeline.withArrays_arr spec0 launch0.win.arr_inj c _ _ 5).trans (Blocks.final m c))
    ((Pipeline.withArrays_of_ne _ c _ _ main_v5 (by exact (by decide : ∀ w, Pipeline.arrRef spec0 w ≠ main_v5))).trans (V_src m c))
    ((Pipeline.withArrays_of_ne _ c _ _ main_v6 (by exact (by decide : ∀ w, Pipeline.arrRef spec0 w ≠ main_v6))).trans (V_dst m c))
    ((Pipeline.withArrays_of_ne _ c _ _ main_arg4 (by exact (by decide : ∀ w, Pipeline.arrRef spec0 w ≠ main_arg4))).trans (V_main_arg4 m c))

/-! ## The arrays the region reads, at an index -/

theorem dinv_at (c : Dev nD) (n : Fin 200000) :
    V m c main_v15 (ix2 n 0) = val_main_v15 (F := Ideal) (m ((c : Thread nD τ).loc main_arg5)) (ix1 n) := by
  rw [V_dinv]; exact col_apply _ n

theorem w1_at (c : Dev nD) (f : Fin 16) :
    V m c main_v28 (ix2 0 f) = (m ((c : Thread nD τ).loc main_arg1) : S16x1.Idx → EReal) (ix2 f 0) := by
  have hi : idx_main_v31 (ix2 0 f) = ix2 f 0 :=
    funext fun a => Fin.ext (by match a with | ⟨0, _⟩ => rfl | ⟨1, _⟩ => rfl)
  rw [V_w1, val_main_v31_apply, hi]

theorem b1_at (c : Dev nD) (f : Fin 16) :
    V m c main_v29 (ix2 0 f) = (m ((c : Thread nD τ).loc main_arg2) : S16.Idx → EReal) (ix1 f) := by
  rw [V_b1]; exact row_apply _ f

theorem w2_at (c : Dev nD) (f : Fin 16) :
    V m c main_v30 (ix2 f 0) = (m ((c : Thread nD τ).loc main_arg3) : S1x16.Idx → EReal) (ix2 0 f) := by
  have hi : idx_main_v76 (ix2 f 0) = ix2 0 f :=
    funext fun a => Fin.ext (by match a with | ⟨0, _⟩ => rfl | ⟨1, _⟩ => rfl)
  rw [V_w2, val_main_v76_apply, hi]

theorem x0_at (x0 : S200000x4.Idx → EReal) (n : Fin 200000) : val_main_v4 (F := Ideal) x0 (ix2 n 0) = x0 (ix2 n 0) := by
  have hi : idx_main_v4 (ix2 n 0) = ix2 n 0 :=
    funext fun a => Fin.ext (by match a with | ⟨0, _⟩ => rfl | ⟨1, _⟩ => rfl)
  rw [val_main_v4_apply, hi]

/-- The first aggregate as a scatter-add of a gather, over the library's records. -/
def aggArr (x0 : S200000x4.Idx → EReal) (x5 : IVec S2x5000000 32) : S200000x1.Idx → EReal :=
  Ideal.hostScatterAdd scatx1 zeroCol (val_main_v10 (F := Ideal) x5)
    (Host.gather gathx1
      (mulf (shapeCast S200000x1 (val_main_v15 (F := Ideal) x5) shapeCasts_S200000_S200000x1 : FVec Ideal S200000x1 .f32)
        (val_main_v4 (F := Ideal) x0) : FVec Ideal S200000x1 .f32)
      (val_main_v21 (F := Ideal) x5))

theorem V_agg' (c : Dev nD) : V m c main_v27 = aggArr (m ((c : Thread nD τ).loc main_arg0)) (m ((c : Thread nD τ).loc main_arg5)) := (V_agg m c).trans rfl

theorem aggRaw_def {ν ε : Type} (a X : ν → EReal) (g : ε → ν) (L : ν → Finset ε) (i : ν) :
    Cert.Gcn.aggRaw a X g L i = ∑ e ∈ L i, a (g e) * X (g e) := rfl
theorem nodeStage_def {ν ε : Type} (a X : ν → EReal) (W1 B1 W2 : Fin 16 → EReal) (g : ε → ν) (L : ν → Finset ε) (n : ν) :
    Cert.Gcn.nodeStage a X W1 B1 W2 g L n = a n * ∑ f : Fin 16, max ((a n * Cert.Gcn.aggRaw a X g L n) * W1 f + B1 f) 0 * W2 f := rfl
theorem aggProjOut_def {ν ε : Type} (a X : ν → EReal) (W1 B1 W2 : Fin 16 → EReal) (B2 : EReal) (g : ε → ν) (L : ν → Finset ε) (i : ν) :
    Cert.Gcn.aggProjOut a X W1 B1 W2 B2 g L i = a i * (∑ e ∈ L i, Cert.Gcn.nodeStage a X W1 B1 W2 g L (g e)) + B2 := rfl
theorem nodeOut_apply (A0 A1 : S200000x1.Idx → EReal) (A2 A3 : S1x16.Idx → EReal) (A4 : S16x1.Idx → EReal) (i : S200000x1.Idx) :
    nodeOut A0 A1 A2 A3 A4 i = A1 i * ∑ f : Fin 16, max ((A1 i * A0 i) * A2 (ix2 0 f) + A3 (ix2 0 f)) 0 * A4 (ix2 f 0) := rfl

/-- The scatter-add of the gather at node n: the sum, over the edges landing on n, of the weight times the first input
    column at their sources. -/
theorem aggArr_at (x0 : S200000x4.Idx → EReal) (x5 : IVec S2x5000000 32) (n : Fin 200000) :
    aggArr x0 x5 (ix2 n 0)
      = Cert.Gcn.aggRaw (fun n => val_main_v15 (F := Ideal) x5 (ix1 n)) (fun n => x0 (ix2 n 0))
          (γ (val_main_v21 (F := Ideal) x5)) (σ (val_main_v10 (F := Ideal) x5)) n := by
  unfold aggArr
  rw [scatterx1_apply, zeroCol_apply, zero_add, aggRaw_def]
  refine Finset.sum_congr rfl (fun e _ => ?_)
  rw [gatherx1_apply, mulf_apply, x0_at, col_apply]

/-- The first aggregate at node n: the sum, over the edges landing on n, of the weighted first input column at their sources. -/
theorem agg_at (c : Dev nD) (n : Fin 200000) :
    V m c main_v27 (ix2 n 0)
      = Cert.Gcn.aggRaw (fun n => val_main_v15 (F := Ideal) (m ((c : Thread nD τ).loc main_arg5)) (ix1 n))
          (fun n => ((m ((c : Thread nD τ).loc main_arg0)) : S200000x4.Idx → EReal) (ix2 n 0))
          (γ (val_main_v21 (F := Ideal) (m ((c : Thread nD τ).loc main_arg5)))) (σ (val_main_v10 (F := Ideal) (m ((c : Thread nD τ).loc main_arg5)))) n := by
  rw [V_agg']
  exact aggArr_at _ _ n

/-- The node function of any five arrays that read, at the indices it uses, as the weight, the aggregate and the dense
    parameters, is the node stage. -/
theorem node_generic {ε : Type} (A0 A1 : S200000x1.Idx → EReal) (A2 A3 : S1x16.Idx → EReal) (A4 : S16x1.Idx → EReal)
    (a X : Fin 200000 → EReal) (W1 B1 W2 : Fin 16 → EReal) (g : ε → Fin 200000) (L : Fin 200000 → Finset ε) (n : Fin 200000)
    (h1 : A1 (ix2 n 0) = a n) (h0 : A0 (ix2 n 0) = Cert.Gcn.aggRaw a X g L n)
    (h2 : ∀ f, A2 (ix2 0 f) = W1 f) (h3 : ∀ f, A3 (ix2 0 f) = B1 f) (h4 : ∀ f, A4 (ix2 f 0) = W2 f) :
    nodeOut A0 A1 A2 A3 A4 (ix2 n 0) = Cert.Gcn.nodeStage a X W1 B1 W2 g L n := by
  rw [nodeOut_apply, nodeStage_def, h1, h0]
  refine congrArg (fun t => a n * t) (Finset.sum_congr rfl (fun f _ => ?_))
  rw [h2, h3, h4]

/-- The tail's value at a node, for any column, output, landing sets and bias that read as the weight, the node stage
    and the bias, is the aggregation-first arrangement. -/
theorem out_generic (dcol zn : S200000x1.Idx → EReal) (Dr Sn : IVec SEx1 32) (b : EReal)
    (a X : Fin 200000 → EReal) (W1 B1 W2 : Fin 16 → EReal) (B2 : EReal) (i : Fin 200000)
    (hd : dcol (ix2 i 0) = a i) (hz : ∀ n, zn (ix2 n 0) = Cert.Gcn.nodeStage a X W1 B1 W2 (γ Sn) (σ Dr) n) (hb : b = B2) :
    dcol (ix2 i 0) * (∑ e ∈ σ Dr i, zn (ix2 (γ Sn e) 0)) + b = Cert.Gcn.aggProjOut a X W1 B1 W2 B2 (γ Sn) (σ Dr) i := by
  rw [aggProjOut_def, hd, hb]
  exact congrArg (fun t => a i * t + B2) (Finset.sum_congr rfl (fun e _ => hz _))

/-- The region's output at node n is the node stage there. -/
theorem node_at (c : Dev nD) (n : Fin 200000) :
    nodeOut (V m c main_v27) (V m c main_v15) (V m c main_v28) (V m c main_v29) (V m c main_v30) (ix2 n 0)
      = Cert.Gcn.nodeStage (fun n => val_main_v15 (F := Ideal) (m ((c : Thread nD τ).loc main_arg5)) (ix1 n))
          (fun n => ((m ((c : Thread nD τ).loc main_arg0)) : S200000x4.Idx → EReal) (ix2 n 0))
          (fun f => (m ((c : Thread nD τ).loc main_arg1) : S16x1.Idx → EReal) (ix2 f 0))
          (fun f => (m ((c : Thread nD τ).loc main_arg2) : S16.Idx → EReal) (ix1 f))
          (fun f => (m ((c : Thread nD τ).loc main_arg3) : S1x16.Idx → EReal) (ix2 0 f))
          (γ (val_main_v21 (F := Ideal) (m ((c : Thread nD τ).loc main_arg5)))) (σ (val_main_v10 (F := Ideal) (m ((c : Thread nD τ).loc main_arg5)))) n := by
  exact node_generic _ _ _ _ _ _ _ _ _ _ _ _ n (dinv_at m c n) (agg_at m c n) (w1_at m c) (b1_at m c) (w2_at m c)

/-- The result buffer after the lines that follow the region, at node i: the node weight times the sum, over the
    edges landing on i, of the node stage at their sources, plus the last bias — with the node weight, the edge
    lists and the landing sets those of the reference's stages (the two programs compute them by the same lines). -/
theorem kernel_value (c : Dev nD) (i : Fin 200000) :
    (Pipeline.afterTail₀ cfgs (dats m) 0 (V0 m) [hostOps1] c main_v45 : S200000x1.Idx → EReal) (ix2 i 0)
      = Cert.Gcn.aggProjOut (fun n => val_main_v15 (F := Ideal) (m ((c : Thread nD τ).loc main_arg5)) (ix1 n))
          (fun n => ((m ((c : Thread nD τ).loc main_arg0)) : S200000x4.Idx → EReal) (ix2 n 0))
          (fun f => (m ((c : Thread nD τ).loc main_arg1) : S16x1.Idx → EReal) (ix2 f 0))
          (fun f => (m ((c : Thread nD τ).loc main_arg2) : S16.Idx → EReal) (ix1 f))
          (fun f => (m ((c : Thread nD τ).loc main_arg3) : S1x16.Idx → EReal) (ix2 0 f))
          ((m ((c : Thread nD τ).loc main_arg4) : S1.Idx → EReal) (ix1 0))
          (γ (val_main_v21 (F := Ideal) (m ((c : Thread nD τ).loc main_arg5))))
          (σ (val_main_v10 (F := Ideal) (m ((c : Thread nD τ).loc main_arg5)))) i := by
  rw [result_eq, tailFn_apply]
  exact out_generic _ _ (val_main_v10 (F := Ideal) (m ((c : Thread nD τ).loc main_arg5))) (val_main_v21 (F := Ideal) (m ((c : Thread nD τ).loc main_arg5))) _ _ _ _ _ _ _ i
    (dinv_at m c i) (node_at m c) rfl

end Cert.KernelIdeal.Value

end
-- ==== Proof.FiniteInputs.lean ====
import proofs.«135276_j39908836114582_2_alg».proof.Pre_finite_inputs
import Idealize.ShloMosaic.PureOps.Ideal
import Idealize.ShloMosaic.Lib.ReduceAll
import Idealize.ShloMosaic.Lib.ValueIdx
noncomputable section
namespace Cert.FiniteInputs
open Idealize.ShloMosaic Cert.Pre_finite_inputs

/-- The rank-0 shape has exactly one index. -/
instance : Subsingleton S_.Idx := ⟨fun a b => funext fun d => d.elim0⟩

/-- An extended real whose absolute value `max x (-x)` lies strictly below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The `f32` word `0x7F800000` denotes `+∞`. -/
theorem ofBits_inf : Ideal.ofBits .f32 0x7F800000#32 = (⊤ : EReal) := by
  simp [Ideal.ofBits, Ideal.ieee]

/-- If the conjunction over all entries of `|x| < +∞` holds (the all-axes reduction by `and` of the comparison of
    `|x|` with the splat `+∞` is 1), then every entry of `x` is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ValueIdx.ix0 = 1#1) :
    ∀ i, ∃ r : ℝ, x i = (r : EReal) := by
  intro i
  have h1 := Host.reduce_andi_all _ _ hr hu ValueIdx.ix0 e i
  have h2 : Ideal.cmp .olt (max (x i) (-(x i))) (Ideal.ofBits .f32 0x7F800000#32) = 1#1 := h1
  rw [ofBits_inf] at h2
  have h3 : BitVec.ofBool (decide (max (x i) (-(x i)) < ⊤)) = 1#1 := h2
  refine real_of_abs_lt_top (x i) ?_
  by_contra hc
  rw [decide_eq_false hc] at h3
  exact absurd h3 (by decide)

/-- Under the precondition every entry of the five float arguments is a real number. -/
theorem real_of_pre [Cert.Pre_finite_inputs.Facts]
    (x0 : FVec Ideal S200000x4 .f32) (x1 : FVec Ideal S16x1 .f32) (x2 : FVec Ideal S16 .f32)
    (x3 : FVec Ideal S1x16 .f32) (x4 : FVec Ideal S1 .f32) (x5 : IVec S2x5000000 32)
    (h : Cert.Pre_finite_inputs.fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  have h0 := congrFun h ValueIdx.ix0
  dsimp only [fn, fn_part1, andi] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨real_of_all x0 _ _ _ e0, real_of_all x1 _ _ _ e1, real_of_all x2 _ _ _ e2,
    real_of_all x3 _ _ _ e3, real_of_all x4 _ _ _ e4⟩

end Cert.FiniteInputs
end
-- ==== Proof.lean ====
/-
  The proof of `Cert.Claim`: the three frames, the idealization (which rewrote nothing), and the equality of the
  kernel's and the reference's results on the extended reals.

  Both programs compute a two-layer graph convolution over 200000 nodes and 5200000 edges (the given edges and
  one self loop per node). With the node weight a(n) = deg(n)^(-1/2) (0 where the degree is 0), a layer sends a
  node feature p to  i ↦ ∑ over the edges e landing on i of p(src e) · (a(src e) · a(dst e)).  The reference
  applies the dense weights first and aggregates sixteen features per edge with the per-edge weight; the kernel
  aggregates the a-scaled single input feature, scales by a(i) after the sum, applies the dense weights at the
  nodes, and does the same for the second layer. The two arrangements are joined by distributivity: a(dst e) is
  a(i) on every edge of the sum, so it and the dense weight leave the sum. On the extended reals distributivity
  fails at the infinities; the precondition says every entry of the five float arguments is finite, the unit of
  the degree count is the real 1, and the reciprocal square root of a positive real is real, so every factor is
  a real number and the law applies.
-/
import proofs.«135276_j39908836114582_2_alg».proof.Defs
import proofs.«135276_j39908836114582_2_alg».proof.Proof.Gen.Kernel
import proofs.«135276_j39908836114582_2_alg».proof.Proof.Gen.Kernel.Skeleton
import proofs.«135276_j39908836114582_2_alg».proof.Proof.Gen.Kernel.Launch
import proofs.«135276_j39908836114582_2_alg».proof.Proof.Gen.Kernel.Points
import proofs.«135276_j39908836114582_2_alg».proof.Proof.Gen.Kernel.Frame
import proofs.«135276_j39908836114582_2_alg».proof.Proof.Gen.KernelIdeal
import proofs.«135276_j39908836114582_2_alg».proof.Proof.Gen.KernelIdeal.Skeleton
import proofs.«135276_j39908836114582_2_alg».proof.Proof.Gen.KernelIdeal.Launch
import proofs.«135276_j39908836114582_2_alg».proof.Proof.Gen.KernelIdeal.Points
import proofs.«135276_j39908836114582_2_alg».proof.Proof.Gen.KernelIdeal.Frame
import proofs.«135276_j39908836114582_2_alg».proof.Proof.Gen.ReferenceIdeal
import proofs.«135276_j39908836114582_2_alg».proof.Proof.Gen.Pre_finite_inputs
import proofs.«135276_j39908836114582_2_alg».proof.Proof.RefRun
import proofs.«135276_j39908836114582_2_alg».proof.Proof.RefRead
import proofs.«135276_j39908836114582_2_alg».proof.Proof.RefValue
import proofs.«135276_j39908836114582_2_alg».proof.Proof.KerValue
import proofs.«135276_j39908836114582_2_alg».proof.Proof.FiniteInputs
import proofs.«135276_j39908836114582_2_alg».proof.Proof.Gcn
import proofs.«135276_j39908836114582_2_alg».proof.Proof.RealLaws
import proofs.«135276_j39908836114582_2_alg».proof.Proof.IndexLib
import Idealize.ShloMosaic.Lib.IdealHost
import Idealize.ShloMosaic.Adequacy
import Idealize.ShloMosaic.Init

set_option maxRecDepth 16384

noncomputable section

namespace Cert.Proof

open Idealize.ShloMosaic Idealize.SL.Sem Idealize.ShloMosaic.TcCoe Idealize.ShloMosaic.ValueIdx
open Cert.IndexLib Cert.RealLaws

/-- the kernel as printed runs and leaves its arguments unchanged -/
theorem frame_Kernel : Cert.frame_Kernel := fun m ρ _ => Cert.Kernel.Gen.frame m ρ

/-- the kernel read on the extended reals runs and leaves its arguments unchanged -/
theorem frame_KernelIdeal : Cert.frame_KernelIdeal := fun m ρ _ => Cert.KernelIdeal.Gen.frame m ρ

/-- the reference read on the extended reals runs and leaves its arguments unchanged -/
theorem frame_ReferenceIdeal : Cert.frame_ReferenceIdeal := fun m ρ _ =>
  (θ_run Cert.ReferenceIdeal.defs _ _).mono (fun _ h c => (h c).2) (Cert.ReferenceIdeal.ValueP.run (F := Ideal) m ρ)

/-- the idealization rewrote no operation -/
theorem preserves_Kernel_KernelIdeal : Cert.preserves_Kernel_KernelIdeal := trivial

/-! ## The reference's result in the kernel's arrangement -/

/-- the unit of the degree count is the real number 1 -/
theorem one_real : IsReal Cert.ReferenceIdeal.RefValue.ONE :=
  ⟨1, Ideal.ofBits_one_f32.trans EReal.coe_one.symm⟩

section Algebra
open Cert.ReferenceIdeal Cert.ReferenceIdeal.ReadP Cert.ReferenceIdeal.RefValue

variable (x0 : (⟨S200000x4, .f32⟩ : BufTy).Contents (Elt Ideal)) (x1 : (⟨S16x1, .f32⟩ : BufTy).Contents (Elt Ideal))
  (x2 : (⟨S16, .f32⟩ : BufTy).Contents (Elt Ideal)) (x3 : (⟨S1x16, .f32⟩ : BufTy).Contents (Elt Ideal))
  (x4 : (⟨S1, .f32⟩ : BufTy).Contents (Elt Ideal)) (x5 : (⟨S2x5000000, .i32⟩ : BufTy).Contents (Elt Ideal))

/-- At real inputs the reference's result at node i is the two-layer convolution with the aggregations on the narrow
    side: the node weights are real (a finite sum of the real unit, and the reciprocal square root of a positive real),
    every edge landing on i reads as i along the normalised destinations, so distributivity moves the destination's
    weight and the dense weights out of both sums. -/
theorem ref_eq_aggProj (h0 : ∀ j, ∃ r : ℝ, x0 j = (r : EReal)) (h1 : ∀ j, ∃ r : ℝ, x1 j = (r : EReal))
    (h2 : ∀ j, ∃ r : ℝ, x2 j = (r : EReal)) (h3 : ∀ j, ∃ r : ℝ, x3 j = (r : EReal)) (i : Fin 200000) :
    val_main_v92 (F := Ideal) x0 x1 x2 x3 x4 x5 (ix2 i 0)
      = Cert.Gcn.aggProjOut (fun n => val_main_v15 (F := Ideal) x5 (ix1 n)) (fun n => x0 (ix2 n 0))
          (fun f => x1 (ix2 f 0)) (fun f => x2 (ix1 f)) (fun f => x3 (ix2 0 f)) (x4 (ix1 0))
          (γ (val_main_v21 (F := Ideal) x5)) (σ (val_main_v10 (F := Ideal) x5)) i := by
  have ha : (fun n : Fin 200000 => val_main_v15 (F := Ideal) x5 (ix1 n))
      = Cert.Gcn.dinv ONE (σ (val_main_v10 (F := Ideal) x5)) := funext (dinv_apply x5)
  rw [ha, result_apply]
  exact (Cert.Gcn.aggProj_eq_projAgg _ _ _ _ _ _ _ (γ (val_main_v28 (F := Ideal) x5)) _
    (fun n => Cert.Gcn.dinv_real ONE one_real _ n) (fun n => h0 _) (fun f => h1 _) (fun f => h2 _) (fun f => h3 _)
    (fun i e he => lands x5 i e he) i).symm

/-- The reference's result array is any array that reads, at every node, as the narrow-side arrangement. -/
theorem ref_eq_of_value (h0 : ∀ j, ∃ r : ℝ, x0 j = (r : EReal)) (h1 : ∀ j, ∃ r : ℝ, x1 j = (r : EReal))
    (h2 : ∀ j, ∃ r : ℝ, x2 j = (r : EReal)) (h3 : ∀ j, ∃ r : ℝ, x3 j = (r : EReal))
    (k : S200000x1.Idx → EReal)
    (hk : ∀ i : Fin 200000, k (ix2 i 0)
      = Cert.Gcn.aggProjOut (fun n => val_main_v15 (F := Ideal) x5 (ix1 n)) (fun n => x0 (ix2 n 0))
          (fun f => x1 (ix2 f 0)) (fun f => x2 (ix1 f)) (fun f => x3 (ix2 0 f)) (x4 (ix1 0))
          (γ (val_main_v21 (F := Ideal) x5)) (σ (val_main_v10 (F := Ideal) x5)) i) :
    val_main_v92 (F := Ideal) x0 x1 x2 x3 x4 x5 = k := by
  funext j
  obtain ⟨i, q, rfl⟩ : ∃ (i : Fin 200000) (q : Fin 1), j = ix2 i q := ⟨j 0, j 1, eq_ix2 j⟩
  obtain rfl : q = 0 := Subsingleton.elim _ _
  exact (ref_eq_aggProj x0 x1 x2 x3 x4 x5 h0 h1 h2 h3 i).trans (hk i).symm

end Algebra

/-! ## The claims -/

/-- On the extended reals the kernel and the reference, from memories agreeing on the arguments, both run, end with
    equal results and leave their arguments unchanged: the kernel's result is its frame run's, read at a node as the
    narrow-side arrangement; the reference's is its run's term, which at finite inputs is the same arrangement. -/
theorem algebraic_KernelIdeal_ReferenceIdeal : Cert.algebraic_KernelIdeal_ReferenceIdeal := by
  intro m ρ m' ρ' hpre hagree
  refine ⟨_, (θ_run Cert.KernelIdeal.defs _ _).mono (fun r h c =>
      ⟨(h c).2 Cert.KernelIdeal.main_v45 (Pipeline.mem_restRefs_of Cert.KernelIdeal.main_v45 (by decide) (by decide)),
       ((h c).2 Cert.KernelIdeal.main_arg0 (Pipeline.mem_restRefs_of Cert.KernelIdeal.main_arg0 (by decide) (by decide))).trans
         (Cert.KernelIdeal.Gen.W_main_arg0 m (Cert.KernelIdeal.Gen.dats m) c),
       ((h c).2 Cert.KernelIdeal.main_arg1 (Pipeline.mem_restRefs_of Cert.KernelIdeal.main_arg1 (by decide) (by decide))).trans
         (Cert.KernelIdeal.Gen.W_main_arg1 m (Cert.KernelIdeal.Gen.dats m) c),
       ((h c).2 Cert.KernelIdeal.main_arg2 (Pipeline.mem_restRefs_of Cert.KernelIdeal.main_arg2 (by decide) (by decide))).trans
         (Cert.KernelIdeal.Gen.W_main_arg2 m (Cert.KernelIdeal.Gen.dats m) c),
       ((h c).2 Cert.KernelIdeal.main_arg3 (Pipeline.mem_restRefs_of Cert.KernelIdeal.main_arg3 (by decide) (by decide))).trans
         (Cert.KernelIdeal.Gen.W_main_arg3 m (Cert.KernelIdeal.Gen.dats m) c),
       ((h c).2 Cert.KernelIdeal.main_arg4 (Pipeline.mem_restRefs_of Cert.KernelIdeal.main_arg4 (by decide) (by decide))).trans
         (Cert.KernelIdeal.Gen.W_main_arg4 m (Cert.KernelIdeal.Gen.dats m) c),
       ((h c).2 Cert.KernelIdeal.main_arg5 (Pipeline.mem_restRefs_of Cert.KernelIdeal.main_arg5 (by decide) (by decide))).trans
         (Cert.KernelIdeal.Gen.W_main_arg5 m (Cert.KernelIdeal.Gen.dats m) c)⟩)
    (Cert.KernelIdeal.Gen.run_main m ρ), ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5⟩ := hagree c
  obtain ⟨r0, r1, r2, r3, _⟩ := Cert.FiniteInputs.real_of_pre _ _ _ _ _ _ (hpre c)
  rw [Cert.ReferenceIdeal.ReadP.val_main_v92_eq, e0, e1, e2, e3, e4, e5]
  exact ref_eq_of_value _ _ _ _ _ _ r0 r1 r2 r3 _ (fun i => Cert.KernelIdeal.Value.kernel_value m c i)

/-- Everything the certificate claims, under the side conditions the generated modules prove. -/
theorem claim : Cert.Claim := ⟨Cert.Kernel.Gen.facts, Cert.KernelIdeal.Gen.facts, Cert.ReferenceIdeal.Gen.facts, Cert.Pre_finite_inputs.Gen.facts,
  frame_Kernel, frame_KernelIdeal, frame_ReferenceIdeal, preserves_Kernel_KernelIdeal, algebraic_KernelIdeal_ReferenceIdeal⟩

end Cert.Proof

end
